-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S128x576 : Shape := ⟨2, ![128, 576]⟩
abbrev S128 : Shape := ⟨1, ![128]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel
  bcast_S_S128x576 : S_.BroadcastsInDim S128x576 (![] : Fin 0 → Fin S128x576.rank)
  reducesTo_S128x576_S_d0_1 : S128x576.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x128x128x64 .f32) (main_arg1 : FVec F S128x576 .f32) (main_arg2 : FVec F S128 .f32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_v4 : FVec F S128x576 .f32 := Host.absf main_arg1
  let main_cst_0 : FVec F S_ .f32 := constant S_ .f32 0x7F800000#32
  let main_v5 : FVec F S128x576 .f32 := broadcastInDim S128x576 ![] bcast_S_S128x576 main_cst_0
  let main_v6 : IVec S128x576 1 := cmpf .olt main_v4 main_v5
  let main_c_1 : IVec S_ 1 := constantI S_ 1 1#1
  let main_v7 : IVec S_ 1 := (fun x v => Host.reduce IntOp.andi x v reducesTo_S128x576_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x128x128x64 : Shape := ⟨4, ![8, 128, 128, 64]⟩
abbrev S128x576 : Shape := ⟨2, ![128, 576]⟩
abbrev S128 : Shape := ⟨1, ![128]⟩
abbrev S576x128 : Shape := ⟨2, ![576, 128]⟩
abbrev S8x126x126x128 : Shape := ⟨4, ![8, 126, 126, 128]⟩
abbrev S1x128x128x64 : Shape := ⟨4, ![1, 128, 128, 64]⟩
abbrev S1x126x126x128 : Shape := ⟨4, ![1, 126, 126, 128]⟩
abbrev S1x128 : Shape := ⟨2, ![1, 128]⟩
abbrev S1764x128 : Shape := ⟨2, ![1764, 128]⟩
abbrev S1x14x126x64 : Shape := ⟨4, ![1, 14, 126, 64]⟩
abbrev S14x126x64 : Shape := ⟨3, ![14, 126, 64]⟩
abbrev S1764x64 : Shape := ⟨2, ![1764, 64]⟩
abbrev S64x128 : Shape := ⟨2, ![64, 128]⟩
abbrev S14x126x128 : Shape := ⟨3, ![14, 126, 128]⟩
abbrev S1x14x126x128 : Shape := ⟨4, ![1, 14, 126, 128]⟩

abbrev nBuf : Space → Nat
  | .hbm => 5
  | .vmem => 6
  | .smem => 0
  | _ => 0

abbrev bufTy : (tb : Table) → Fin (tcTables nBuf tb) → BufTy
  | .hbm, ⟨0, _⟩ => ⟨S8x128x128x64, .f32⟩
  | .hbm, ⟨1, _⟩ => ⟨S128x576, .f32⟩
  | .hbm, ⟨2, _⟩ => ⟨S128, .f32⟩
  | .hbm, ⟨3, _⟩ => ⟨S576x128, .f32⟩
  | .hbm, ⟨4, _⟩ => ⟨S8x126x126x128, .f32⟩
  | .local _ .vmem, ⟨0, _⟩ => ⟨S1x128x128x64, .f32⟩
  | .local _ .vmem, ⟨1, _⟩ => ⟨S1x128x128x64, .f32⟩
  | .local _ .vmem, ⟨2, _⟩ => ⟨S576x128, .f32⟩
  | .local _ .vmem, ⟨3, _⟩ => ⟨S128, .f32⟩
  | .local _ .vmem, ⟨4, _⟩ => ⟨S1x126x126x128, .f32⟩
  | .local _ .vmem, ⟨5, _⟩ => ⟨S1x126x126x128, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c9_i32 : BitVec 32 := 9#32
  let v2 : BitVec 32 := Scalar.addi c0_i32 c9_i32
  let c1_i32 : BitVec 32 := 1#32
  ⟨c0_i32, v2, c1_i32⟩
def k0_off1 (k0_t1 : Fin k0_t1_loop.trips) (c0_i32_1 : BitVec 32) : Fin 4 → Nat :=
  let c0_2 : Index := 0#32
  let c0_i32 : BitVec 32 := 0#32
  let c1_i32 : BitVec 32 := 1#32
  let arg5 : BitVec 32 := Scf.iv c0_i32 c1_i32 k0_t1
  let c14_i32 : BitVec 32 := 14#32
  let v3 : BitVec 32 := Scalar.muli arg5 c14_i32
  let v5 : BitVec 32 := Scalar.addi v3 c0_i32_1
  let v6 : Index := Scalar.indexCast v5
  let c0_3 : Index := 0#32
  let c0_4 : Index := 0#32
  ![0, v6.toNat, 0, 0]
def k0_off2 (k0_t1 : Fin k0_t1_loop.trips) (c0_i32_8 : BitVec 32) : Fin 4 → Nat :=
  let c0_9 : Index := 0#32
  let c0_i32 : BitVec 32 := 0#32
  let c1_i32 : BitVec 32 := 1#32
  let arg5 : BitVec 32 := Scf.iv c0_i32 c1_i32 k0_t1
  let c14_i32 : BitVec 32 := 14#32
  let v3 : BitVec 32 := Scalar.muli arg5 c14_i32
  let v16 : BitVec 32 := Scalar.addi v3 c0_i32_8
  let v17 : Index := Scalar.indexCast v16
  let c1 : Index := 1#32
  let c0_10 : Index := 0#32
  ![0, v17.toNat, 1, 0]
def k0_off3 (k0_t1 : Fin k0_t1_loop.trips) (c0_i32_13 : BitVec 32) : Fin 4 → Nat :=
  let c0_14 : Index := 0#32
  let c0_i32 : BitVec 32 := 0#32
  let c1_i32 : BitVec 32 := 1#32
  let arg5 : BitVec 32 := Scf.iv c0_i32 c1_i32 k0_t1
  let c14_i32 : BitVec 32 := 14#32
  let v3 : BitVec 32 := Scalar.muli arg5 c14_i32
  let v27 : BitVec 32 := Scalar.addi v3 c0_i32_13
  let v28 : Index := Scalar.indexCast v27
  let c2 : Index := 2#32
  let c0_15 : Index := 0#32
  ![0, v28.toNat, 2, 0]
def k0_off4 (k0_t1 : Fin k0_t1_loop.trips) : Fin 4 → Nat :=
  let c0_53 : Index := 0#32
  let c0_i32 : BitVec 32 := 0#32
  let c1_i32 : BitVec 32 := 1#32
  let arg5 : BitVec 32 := Scf.iv c0_i32 c1_i32 k0_t1
  let c14_i32 : BitVec 32 := 14#32
  let v3 : BitVec 32 := Scalar.muli arg5 c14_i32
  let v107 : Index := Scalar.indexCast v3
  let c0_54 : Index := 0#32
  let c0_55 : Index := 0#32
  ![0, v107.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x126x126x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x576_S576x128_1_0 : S128x576.Transposes [1, 0] S576x128
  inb_S128_S128_0 : ∀ a, (![0] : Fin 1 → Nat) a + S128.size a ≤ S128.size a
  h_S128 : 0 < S128.numel
  shapeCasts_S128_S1x128 : S128.ShapeCasts S1x128
  h_S1x14x126x64 : 0 < S1x14x126x64.numel
  shapeCasts_S1x14x126x64_S14x126x64 : S1x14x126x64.ShapeCasts S14x126x64
  bitsLt_bf16_f32 : FTy.bits .bf16 < FTy.bits .f32
  shapeCasts_S14x126x64_S1764x64 : S14x126x64.ShapeCasts S1764x64
  inb_S576x128_S64x128_0_0 : ∀ a, (![0, 0] : Fin 2 → Nat) a + S64x128.size a ≤ S576x128.size a
  h_S64x128 : 0 < S64x128.numel
  shapeCasts_S64x128_S64x128 : S64x128.ShapeCasts S64x128
  inb_S576x128_S64x128_64_0 : ∀ a, (![64, 0] : Fin 2 → Nat) a + S64x128.size a ≤ S576x128.size a
  inb_S576x128_S64x128_128_0 : ∀ a, (![128, 0] : Fin 2 → Nat) a + S64x128.size a ≤ S576x128.size a
  inb_S576x128_S64x128_192_0 : ∀ a, (![192, 0] : Fin 2 → Nat) a + S64x128.size a ≤ S576x128.size a
  inb_S576x128_S64x128_256_0 : ∀ a, (![256, 0] : Fin 2 → Nat) a + S64x128.size a ≤ S576x128.size a
  inb_S576x128_S64x128_320_0 : ∀ a, (![320, 0] : Fin 2 → Nat) a + S64x128.size a ≤ S576x128.size a
  inb_S576x128_S64x128_384_0 : ∀ a, (![384, 0] : Fin 2 → Nat) a + S64x128.size a ≤ S576x128.size a
  inb_S576x128_S64x128_448_0 : ∀ a, (![448, 0] : Fin 2 → Nat) a + S64x128.size a ≤ S576x128.size a
  inb_S576x128_S64x128_512_0 : ∀ a, (![512, 0] : Fin 2 → Nat) a + S64x128.size a ≤ S576x128.size a
  broadcasts_S1x128_S1764x128 : S1x128.Broadcasts S1764x128
  shapeCasts_S1764x128_S14x126x128 : S1764x128.ShapeCasts S14x126x128
  h_S1x14x126x128 : 0 < S1x14x126x128.numel
  shapeCasts_S1x14x126x128_S14x126x128 : S1x14x126x128.ShapeCasts S14x126x128
  shapeCasts_S14x126x128_S1x14x126x128 : S14x126x128.ShapeCasts S1x14x126x128
  dot_S1764x64_S64x128_S1764x128_1_0_0_1_n_n_wf : DotDims.WF S1764x64 S64x128 S1764x128 [1] [0] [0] [1] [] []
  hrank0 : 0 < grid0.rank
  k0_t1_ok : k0_t1_loop.OK
  k0_off1_inb : ∀ k0_t1 : Fin k0_t1_loop.trips, ∀ (r : Fin 3), ∀ a, (k0_off1 k0_t1 (BitVec.ofNat 32 r.val)) a + S1x14x126x64.size a ≤ S1x128x128x64.size a
  k0_off2_inb : ∀ k0_t1 : Fin k0_t1_loop.trips, ∀ (r : Fin 3), ∀ a, (k0_off2 k0_t1 (BitVec.ofNat 32 r.val)) a + S1x14x126x64.size a ≤ S1x128x128x64.size a
  k0_off3_inb : ∀ k0_t1 : Fin k0_t1_loop.trips, ∀ (r : Fin 3), ∀ a, (k0_off3 k0_t1 (BitVec.ofNat 32 r.val)) a + S1x14x126x64.size a ≤ S1x128x128x64.size a
  k0_off4_inb : ∀ k0_t1 : Fin k0_t1_loop.trips, ∀ a, (k0_off4 k0_t1) a + S1x14x126x128.size a ≤ S1x126x126x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S8x128x128x64.size a
  hwx0_0 : ∀ i : grid0.Coords, EltTy.bits .f32 = 32 ∨ (Rect.block (s := S8x128x128x64) S1x128x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .f32 = 32 ∨ (Rect.block (s := S576x128) S576x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x126x126x128.size a ≤ S8x126x126x128.size a
  hwx0_3 : ∀ i : grid0.Coords, EltTy.bits .f32 = 32 ∨ (Rect.block (s := S8x126x126x128) S1x126x126x128.size (cc0_transform_3 i) (hinb0_3 i)).WholeWords (EltTy.packing .f32)

variable [Facts₀]

def dot_S1764x64_S64x128_S1764x128_1_0_0_1_n_n : DotDims S1764x64 S64x128 S1764x128 where
  lhsContracting := [1]
  rhsContracting := [0]
  lhsNonContracting := [0]
  rhsNonContracting := [1]
  lhsBatch := []
  rhsBatch := []
  wf := dot_S1764x64_S64x128_S1764x128_1_0_0_1_n_n_wf

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x126x126x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S128x576 : Shape := ⟨2, ![128, 576]⟩
abbrev S128 : Shape := ⟨1, ![128]⟩
abbrev S8x126x126x64 : Shape := ⟨4, ![8, 126, 126, 64]⟩
abbrev S8x126x126x1x64 : Shape := ⟨5, ![8, 126, 126, 1, 64]⟩
abbrev S8x126x126x9x64 : Shape := ⟨5, ![8, 126, 126, 9, 64]⟩
abbrev S8x126x126x576 : Shape := ⟨4, ![8, 126, 126, 576]⟩
abbrev S8x126x126x128 : Shape := ⟨4, ![8, 126, 126, 128]⟩
abbrev S1x1x1x128 : Shape := ⟨4, ![1, 1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x128x128x64, .f32⟩
  | .hbm, ⟨1, _⟩ => ⟨S128x576, .f32⟩
  | .hbm, ⟨2, _⟩ => ⟨S128, .f32⟩
  | .hbm, ⟨3, _⟩ => ⟨S8x126x126x64, .f32⟩
  | .hbm, ⟨4, _⟩ => ⟨S8x126x126x64, .f32⟩
  | .hbm, ⟨5, _⟩ => ⟨S8x126x126x64, .f32⟩
  | .hbm, ⟨6, _⟩ => ⟨S8x126x126x64, .f32⟩
  | .hbm, ⟨7, _⟩ => ⟨S8x126x126x64, .f32⟩
  | .hbm, ⟨8, _⟩ => ⟨S8x126x126x64, .f32⟩
  | .hbm, ⟨9, _⟩ => ⟨S8x126x126x64, .f32⟩
  | .hbm, ⟨10, _⟩ => ⟨S8x126x126x64, .f32⟩
  | .hbm, ⟨11, _⟩ => ⟨S8x126x126x64, .f32⟩
  | .hbm, ⟨12, _⟩ => ⟨S8x126x126x1x64, .f32⟩
  | .hbm, ⟨13, _⟩ => ⟨S8x126x126x1x64, .f32⟩
  | .hbm, ⟨14, _⟩ => ⟨S8x126x126x1x64, .f32⟩
  | .hbm, ⟨15, _⟩ => ⟨S8x126x126x1x64, .f32⟩
  | .hbm, ⟨16, _⟩ => ⟨S8x126x126x1x64, .f32⟩
  | .hbm, ⟨17, _⟩ => ⟨S8x126x126x1x64, .f32⟩
  | .hbm, ⟨18, _⟩ => ⟨S8x126x126x1x64, .f32⟩
  | .hbm, ⟨19, _⟩ => ⟨S8x126x126x1x64, .f32⟩
  | .hbm, ⟨20, _⟩ => ⟨S8x126x126x1x64, .f32⟩
  | .hbm, ⟨21, _⟩ => ⟨S8x126x126x9x64, .f32⟩
  | .hbm, ⟨22, _⟩ => ⟨S8x126x126x576, .f32⟩
  | .hbm, ⟨23, _⟩ => ⟨S8x126x126x128, .f32⟩
  | .hbm, ⟨24, _⟩ => ⟨S1x1x1x128, .f32⟩
  | .hbm, ⟨25, _⟩ => ⟨S8x126x126x128, .f32⟩
  | .hbm, ⟨26, _⟩ => ⟨S8x126x126x128, .f32⟩
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]

class Facts₀ : Prop where
  slices_S8x128x128x64_S8x126x126x64_0_0_0_0 : S8x128x128x64.Slices ![0, 0, 0, 0] S8x126x126x64
  slices_S8x128x128x64_S8x126x126x64_0_0_1_0 : S8x128x128x64.Slices ![0, 0, 1, 0] S8x126x126x64
  slices_S8x128x128x64_S8x126x126x64_0_0_2_0 : S8x128x128x64.Slices ![0, 0, 2, 0] S8x126x126x64
  slices_S8x128x128x64_S8x126x126x64_0_1_0_0 : S8x128x128x64.Slices ![0, 1, 0, 0] S8x126x126x64
  slices_S8x128x128x64_S8x126x126x64_0_1_1_0 : S8x128x128x64.Slices ![0, 1, 1, 0] S8x126x126x64
  slices_S8x128x128x64_S8x126x126x64_0_1_2_0 : S8x128x128x64.Slices ![0, 1, 2, 0] S8x126x126x64
  slices_S8x128x128x64_S8x126x126x64_0_2_0_0 : S8x128x128x64.Slices ![0, 2, 0, 0] S8x126x126x64
  slices_S8x128x128x64_S8x126x126x64_0_2_1_0 : S8x128x128x64.Slices ![0, 2, 1, 0] S8x126x126x64
  slices_S8x128x128x64_S8x126x126x64_0_2_2_0 : S8x128x128x64.Slices ![0, 2, 2, 0] S8x126x126x64
  bcast_S8x126x126x64_S8x126x126x1x64_0_1_2_4 : S8x126x126x64.BroadcastsInDim S8x126x126x1x64 (![0, 1, 2, 4] : Fin 4 → Fin S8x126x126x1x64.rank)
  concatenates_S8x126x126x1x64_S8x126x126x1x64_S8x126x126x1x64_S8x126x126x1x64_S8x126x126x1x64_S8x126x126x1x64_S8x126x126x1x64_S8x126x126x1x64_S8x126x126x1x64_S8x126x126x9x64_d3 : Shape.Concatenates [S8x126x126x1x64, S8x126x126x1x64, S8x126x126x1x64, S8x126x126x1x64, S8x126x126x1x64, S8x126x126x1x64, S8x126x126x1x64, S8x126x126x1x64, S8x126x126x1x64] S8x126x126x9x64 3
  shapeCasts_S8x126x126x9x64_S8x126x126x576 : S8x126x126x9x64.ShapeCasts S8x126x126x576
  bcast_S128_S1x1x1x128_3 : S128.BroadcastsInDim S1x1x1x128 (![3] : Fin 1 → Fin S1x1x1x128.rank)
  bcast_S1x1x1x128_S8x126x126x128_0_1_2_3 : S1x1x1x128.BroadcastsInDim S8x126x126x128 (![0, 1, 2, 3] : Fin 4 → Fin S8x126x126x128.rank)
  dot_S8x126x126x576_S128x576_S8x126x126x128_3_1_012_0_n_n_wf : DotDims.WF S8x126x126x576 S128x576 S8x126x126x128 [3] [1] [0, 1, 2] [0] [] []

variable [Facts₀]

def dot_S8x126x126x576_S128x576_S8x126x126x128_3_1_012_0_n_n : DotDims S8x126x126x576 S128x576 S8x126x126x128 where
  lhsContracting := [3]
  rhsContracting := [1]
  lhsNonContracting := [0, 1, 2]
  rhsNonContracting := [0]
  lhsBatch := []
  rhsBatch := []
  wf := dot_S8x126x126x576_S128x576_S8x126x126x128_3_1_012_0_n_n_wf

class Facts : Prop extends Facts₀ where

variable [Facts]
-- ==== Proof.TripPieceB.lean ====
/-
  One trip of the kernel's loop over the nine chunks of 14 output rows, read as a value.

  Trip k stores ONE piece into the output block: the rectangle of rows [14·k, 14·k + 14) (all 126 columns, all 128
  filters), holding the body's arithmetic applied to what the trip loads — nine patches of the image block at rows
  14·k + di, columns from dj (di, dj ∈ {0,1,2}), nine 64-row slabs of the weight block, and the bias.  The trip also
  loads the rectangle it is about to overwrite, but the stored value does not use that load, so the piece is the same
  whatever the output block held before; consequently the list of pieces of the trips before any k does not depend on
  the block's contents at loop entry either.
-/
import proofs.«163647_j44822278701238_2_alg».proof.Proof.Gen.Kernel.Loops

set_option maxRecDepth 16384

noncomputable section

namespace Cert.Kernel.Trip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (arg1 : Memref sig .tc .vmem S1x128x128x64 .f32) (arg2 : Memref sig .tc .vmem S576x128 .f32)
  (X1 : BufTy.Contents (Elt F) arg1.view.ty) (X2 : BufTy.Contents (Elt F) arg2.view.ty)

/-- The patch trip k loads for tap (di, dj): rows from 14·k + di, columns from dj. -/
def patch0 (k : Fin k0_t1_loop.trips) (di : Fin 3) : Vec F S1x14x126x64 .f32 :=
  View.readAt (Elt F) arg1.view (Rect.unit (s := S1x128x128x64) (k0_off1 k (BitVec.ofNat 32 di.val)) S1x14x126x64.size (k0_off1_inb k di)).toLoadRect X1
def patch1 (k : Fin k0_t1_loop.trips) (di : Fin 3) : Vec F S1x14x126x64 .f32 :=
  View.readAt (Elt F) arg1.view (Rect.unit (s := S1x128x128x64) (k0_off2 k (BitVec.ofNat 32 di.val)) S1x14x126x64.size (k0_off2_inb k di)).toLoadRect X1
def patch2 (k : Fin k0_t1_loop.trips) (di : Fin 3) : Vec F S1x14x126x64 .f32 :=
  View.readAt (Elt F) arg1.view (Rect.unit (s := S1x128x128x64) (k0_off3 k (BitVec.ofNat 32 di.val)) S1x14x126x64.size (k0_off3_inb k di)).toLoadRect X1

/-- The 64-row slab of the weight block from row `o`. -/
def slab (o : ℕ) (h : ∀ a, (![o, 0] : Fin 2 → ℕ) a + S64x128.size a ≤ S576x128.size a) : Vec F S64x128 .f32 :=
  View.readAt (Elt F) arg2.view (Rect.unit (s := S576x128) ![o, 0] S64x128.size h).toLoadRect X2

/-- What trip k stores: the body's arithmetic of the nine patches, the nine slabs and the bias. -/
def tripVal (v0 : Vec F S128 .f32) (k : Fin k0_t1_loop.trips) : FVec F S1x14x126x128 .f32 :=
  k0_pay4 (k0_pay1 v0)
    (k0_pay3
      (k0_pay2 (patch0 arg1 X1 k 0) (slab arg2 X2 0 inb_S576x128_S64x128_0_0) (patch1 arg1 X1 k 0) (slab arg2 X2 64 inb_S576x128_S64x128_64_0)
        (patch2 arg1 X1 k 0) (slab arg2 X2 128 inb_S576x128_S64x128_128_0))
      (patch0 arg1 X1 k 1) (slab arg2 X2 192 inb_S576x128_S64x128_192_0) (patch1 arg1 X1 k 1) (slab arg2 X2 256 inb_S576x128_S64x128_256_0)
      (patch2 arg1 X1 k 1) (slab arg2 X2 320 inb_S576x128_S64x128_320_0))
    (patch0 arg1 X1 k 2) (slab arg2 X2 384 inb_S576x128_S64x128_384_0) (patch1 arg1 X1 k 2) (slab arg2 X2 448 inb_S576x128_S64x128_448_0)
    (patch2 arg1 X1 k 2) (slab arg2 X2 512 inb_S576x128_S64x128_512_0)

/-- The piece trip k stores: rows [14·k, 14·k + 14) of the output block, at `tripVal`. -/
def tripPiece (v0 : Vec F S128 .f32) (k : Fin k0_t1_loop.trips) : View.Piece (Elt F) S1x126x126x128 .f32 :=
  ⟨Rect.unit (s := S1x126x126x128) (k0_off4 k) S1x14x126x128.size (k0_off4_inb k), tripVal arg1 arg2 X1 X2 v0 k⟩

variable (𝒱 : Variants) (c : Dev nD) (bd : Option 𝒱.V) (i : grid0.Coords) (harg1 : arg1.IsWhole) (harg2 : arg2.IsWhole)
  (arg3 : Memref sig .tc .vmem S128 .f32) (harg3 : arg3.IsWhole) (arg4 : Memref sig .tc .vmem S1x126x126x128 .f32) (harg4 : arg4.IsWhole)
  (v0 : Vec F S128 .f32)

/-- The trip's pieces are that one piece, whatever the output block holds when the trip starts. -/
theorem tripL_eq (k : Fin k0_t1_loop.trips) (f : BufTy.Contents (Elt F) arg4.view.ty) :
    tripL_k0_t1 (F := F) 𝒱 c bd i arg1 harg1 arg2 harg2 arg3 harg3 arg4 harg4 v0 X1 X2 k f = [tripPiece arg1 arg2 X1 X2 v0 k] := by
  unfold tripL_k0_t1
  unfold trip_k0_t1
  rfl

/-- The pieces of the trips before `n` do not depend on the block's contents at loop entry. -/
theorem pb_indep (G G' : BufTy.Contents (Elt F) arg4.view.ty) : ∀ n : ℕ,
    pb_k0_t1 (F := F) 𝒱 c bd i arg1 harg1 arg2 harg2 arg3 harg3 arg4 harg4 v0 X1 X2 G n
      = pb_k0_t1 (F := F) 𝒱 c bd i arg1 harg1 arg2 harg2 arg3 harg3 arg4 harg4 v0 X1 X2 G' n
  | 0 => rfl
  | n + 1 => by
    rw [pb_k0_t1.eq_2, pb_k0_t1.eq_2]
    unfold pb_k0_t1Step
    by_cases h : n < k0_t1_loop.trips
    · rw [dif_pos h, dif_pos h, tripL_eq, tripL_eq, pb_indep G G' n]
    · rw [dif_neg h, dif_neg h, pb_indep G G' n]

/-- The pieces before trip k + 1: trip k's piece in front of those before trip k. -/
theorem pb_succ (G : BufTy.Contents (Elt F) arg4.view.ty) (k : Fin k0_t1_loop.trips) :
    pb_k0_t1 (F := F) 𝒱 c bd i arg1 harg1 arg2 harg2 arg3 harg3 arg4 harg4 v0 X1 X2 G (k.val + 1)
      = tripPiece arg1 arg2 X1 X2 v0 k :: pb_k0_t1 (F := F) 𝒱 c bd i arg1 harg1 arg2 harg2 arg3 harg3 arg4 harg4 v0 X1 X2 G k.val := by
  rw [pb_k0_t1_succ, tripL_eq]
  rfl

end Cert.Kernel.Trip

end
-- ==== Proof.TripPieceI.lean ====
/-
  One trip of the kernel's loop over the nine chunks of 14 output rows, read as a value.

  Trip k stores ONE piece into the output block: the rectangle of rows [14·k, 14·k + 14) (all 126 columns, all 128
  filters), holding the body's arithmetic applied to what the trip loads — nine patches of the image block at rows
  14·k + di, columns from dj (di, dj ∈ {0,1,2}), nine 64-row slabs of the weight block, and the bias.  The trip also
  loads the rectangle it is about to overwrite, but the stored value does not use that load, so the piece is the same
  whatever the output block held before; consequently the list of pieces of the trips before any k does not depend on
  the block's contents at loop entry either.
-/
import proofs.«163647_j44822278701238_2_alg».proof.Proof.Gen.KernelIdeal.Loops

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (arg1 : Memref sig .tc .vmem S1x128x128x64 .f32) (arg2 : Memref sig .tc .vmem S576x128 .f32)
  (X1 : BufTy.Contents (Elt F) arg1.view.ty) (X2 : BufTy.Contents (Elt F) arg2.view.ty)

/-- The patch trip k loads for tap (di, dj): rows from 14·k + di, columns from dj. -/
def patch0 (k : Fin k0_t1_loop.trips) (di : Fin 3) : Vec F S1x14x126x64 .f32 :=
  View.readAt (Elt F) arg1.view (Rect.unit (s := S1x128x128x64) (k0_off1 k (BitVec.ofNat 32 di.val)) S1x14x126x64.size (k0_off1_inb k di)).toLoadRect X1
def patch1 (k : Fin k0_t1_loop.trips) (di : Fin 3) : Vec F S1x14x126x64 .f32 :=
  View.readAt (Elt F) arg1.view (Rect.unit (s := S1x128x128x64) (k0_off2 k (BitVec.ofNat 32 di.val)) S1x14x126x64.size (k0_off2_inb k di)).toLoadRect X1
def patch2 (k : Fin k0_t1_loop.trips) (di : Fin 3) : Vec F S1x14x126x64 .f32 :=
  View.readAt (Elt F) arg1.view (Rect.unit (s := S1x128x128x64) (k0_off3 k (BitVec.ofNat 32 di.val)) S1x14x126x64.size (k0_off3_inb k di)).toLoadRect X1

/-- The 64-row slab of the weight block from row `o`. -/
def slab (o : ℕ) (h : ∀ a, (![o, 0] : Fin 2 → ℕ) a + S64x128.size a ≤ S576x128.size a) : Vec F S64x128 .f32 :=
  View.readAt (Elt F) arg2.view (Rect.unit (s := S576x128) ![o, 0] S64x128.size h).toLoadRect X2

/-- What trip k stores: the body's arithmetic of the nine patches, the nine slabs and the bias. -/
def tripVal (v0 : Vec F S128 .f32) (k : Fin k0_t1_loop.trips) : FVec F S1x14x126x128 .f32 :=
  k0_pay4 (k0_pay1 v0)
    (k0_pay3
      (k0_pay2 (patch0 arg1 X1 k 0) (slab arg2 X2 0 inb_S576x128_S64x128_0_0) (patch1 arg1 X1 k 0) (slab arg2 X2 64 inb_S576x128_S64x128_64_0)
        (patch2 arg1 X1 k 0) (slab arg2 X2 128 inb_S576x128_S64x128_128_0))
      (patch0 arg1 X1 k 1) (slab arg2 X2 192 inb_S576x128_S64x128_192_0) (patch1 arg1 X1 k 1) (slab arg2 X2 256 inb_S576x128_S64x128_256_0)
      (patch2 arg1 X1 k 1) (slab arg2 X2 320 inb_S576x128_S64x128_320_0))
    (patch0 arg1 X1 k 2) (slab arg2 X2 384 inb_S576x128_S64x128_384_0) (patch1 arg1 X1 k 2) (slab arg2 X2 448 inb_S576x128_S64x128_448_0)
    (patch2 arg1 X1 k 2) (slab arg2 X2 512 inb_S576x128_S64x128_512_0)

/-- The piece trip k stores: rows [14·k, 14·k + 14) of the output block, at `tripVal`. -/
def tripPiece (v0 : Vec F S128 .f32) (k : Fin k0_t1_loop.trips) : View.Piece (Elt F) S1x126x126x128 .f32 :=
  ⟨Rect.unit (s := S1x126x126x128) (k0_off4 k) S1x14x126x128.size (k0_off4_inb k), tripVal arg1 arg2 X1 X2 v0 k⟩

variable (𝒱 : Variants) (c : Dev nD) (bd : Option 𝒱.V) (i : grid0.Coords) (harg1 : arg1.IsWhole) (harg2 : arg2.IsWhole)
  (arg3 : Memref sig .tc .vmem S128 .f32) (harg3 : arg3.IsWhole) (arg4 : Memref sig .tc .vmem S1x126x126x128 .f32) (harg4 : arg4.IsWhole)
  (v0 : Vec F S128 .f32)

/-- The trip's pieces are that one piece, whatever the output block holds when the trip starts. -/
theorem tripL_eq (k : Fin k0_t1_loop.trips) (f : BufTy.Contents (Elt F) arg4.view.ty) :
    tripL_k0_t1 (F := F) 𝒱 c bd i arg1 harg1 arg2 harg2 arg3 harg3 arg4 harg4 v0 X1 X2 k f = [tripPiece arg1 arg2 X1 X2 v0 k] := by
  unfold tripL_k0_t1
  unfold trip_k0_t1
  rfl

/-- The pieces of the trips before `n` do not depend on the block's contents at loop entry. -/
theorem pb_indep (G G' : BufTy.Contents (Elt F) arg4.view.ty) : ∀ n : ℕ,
    pb_k0_t1 (F := F) 𝒱 c bd i arg1 harg1 arg2 harg2 arg3 harg3 arg4 harg4 v0 X1 X2 G n
      = pb_k0_t1 (F := F) 𝒱 c bd i arg1 harg1 arg2 harg2 arg3 harg3 arg4 harg4 v0 X1 X2 G' n
  | 0 => rfl
  | n + 1 => by
    rw [pb_k0_t1.eq_2, pb_k0_t1.eq_2]
    unfold pb_k0_t1Step
    by_cases h : n < k0_t1_loop.trips
    · rw [dif_pos h, dif_pos h, tripL_eq, tripL_eq, pb_indep G G' n]
    · rw [dif_neg h, dif_neg h, pb_indep G G' n]

/-- The pieces before trip k + 1: trip k's piece in front of those before trip k. -/
theorem pb_succ (G : BufTy.Contents (Elt F) arg4.view.ty) (k : Fin k0_t1_loop.trips) :
    pb_k0_t1 (F := F) 𝒱 c bd i arg1 harg1 arg2 harg2 arg3 harg3 arg4 harg4 v0 X1 X2 G (k.val + 1)
      = tripPiece arg1 arg2 X1 X2 v0 k :: pb_k0_t1 (F := F) 𝒱 c bd i arg1 harg1 arg2 harg2 arg3 harg3 arg4 harg4 v0 X1 X2 G k.val := by
  rw [pb_k0_t1_succ, tripL_eq]
  rfl

end Cert.KernelIdeal.Trip

end
-- ==== Proof.BodyReadI.lean ====
/-
  What the loop's pieces leave in the output block, read at an entry, and what the trip's loads read.

  The pieces of the trips before n are the rectangles of rows [14·j, 14·j + 14), j < n, newest first, each holding its
  trip's stored value.  The rectangles are disjoint, so an entry of row h < 14·n reads the value trip h / 14 stored, at
  row h % 14 of that trip's chunk (induction on n: under the newest rectangle its payload, elsewhere the earlier list).

  A load of a buffer whose contents read x, through the unit-stride rectangle at offsets o, reads x at o + the position.
  Trip k's patch for tap (di, dj) is the image block at rows 14·k + di + r, columns wd + dj; slab p is the weight
  block's rows 64·p + c; the bias load is the whole bias vector.
-/
import proofs.«163647_j44822278701238_2_alg».proof.Proof.TripPieceI
import Idealize.ShloMosaic.Lib.WritesUnit
import Idealize.ShloMosaic.Lib.ValueIdx
import Idealize.ShloMosaic.Lib.Pipeline.Frame

set_option maxRecDepth 16384

noncomputable section

namespace Cert.KernelIdeal.Trip

open Cert.KernelIdeal Cert.KernelIdeal.Gen
open Idealize.ShloMosaic Idealize.ShloMosaic.TcCoe Idealize.ShloMosaic.ValueIdx

/-- The loop makes nine trips. -/
theorem trips_eq : k0_t1_loop.trips = 9 := by decide +kernel

/-- The trip that writes output row h, and the row's position within that trip's chunk. -/
def chunk (h : Fin 126) : Fin k0_t1_loop.trips := ⟨h.val / 14, by rw [trips_eq]; omega⟩
def rowIn (h : Fin 126) : Fin 14 := ⟨h.val % 14, Nat.mod_lt _ (by norm_num)⟩

theorem chunk_val (h : Fin 126) : (chunk h).val = h.val / 14 := rfl
theorem rowIn_val (h : Fin 126) : (rowIn h).val = h.val % 14 := rfl

variable {F : FTy → Type} [FloatOps F]

section Pieces

variable (arg1 : Memref sig .tc .vmem S1x128x128x64 .f32) (arg2 : Memref sig .tc .vmem S576x128 .f32)
  (X1 : BufTy.Contents (Elt F) arg1.view.ty) (X2 : BufTy.Contents (Elt F) arg2.view.ty)
  (𝒱 : Variants) (c : Dev nD) (bd : Option 𝒱.V) (i : grid0.Coords) (harg1 : arg1.IsWhole) (harg2 : arg2.IsWhole)
  (arg3 : Memref sig .tc .vmem S128 .f32) (harg3 : arg3.IsWhole) (arg4 : Memref sig .tc .vmem S1x126x126x128 .f32) (harg4 : arg4.IsWhole)
  (v0 : Vec F S128 .f32) (G : BufTy.Contents (Elt F) arg4.view.ty)

/-- An entry of a row below 14·n reads, after the pieces of the trips before n, what its own trip stored there. -/
theorem read_pb {sig' : RefSig} {κ : Kind} {sp : Space} (v : View sig' κ sp S1x126x126x128 .f32) (G₀ : v.ty.Contents (Elt F)) :
    ∀ n : ℕ, n ≤ k0_t1_loop.trips → ∀ (h wd : Fin 126) (f : Fin 128), h.val < 14 * n →
      v.read (Elt F) (v.writes (Elt F) G₀ (pb_k0_t1 (F := F) 𝒱 c bd i arg1 harg1 arg2 harg2 arg3 harg3 arg4 harg4 v0 X1 X2 G n))
          (ix4 (0 : Fin 1) h wd f)
        = tripVal arg1 arg2 X1 X2 v0 (chunk h) (ix4 (0 : Fin 1) (rowIn h) wd f)
  | 0, _, h, wd, f, hh => absurd hh (by omega)
  | n + 1, hn, h, wd, f, hh => by
    have hlt : n < k0_t1_loop.trips := hn
    have e : pb_k0_t1 (F := F) 𝒱 c bd i arg1 harg1 arg2 harg2 arg3 harg3 arg4 harg4 v0 X1 X2 G (n + 1)
        = tripPiece arg1 arg2 X1 X2 v0 ⟨n, hlt⟩ :: pb_k0_t1 (F := F) 𝒱 c bd i arg1 harg1 arg2 harg2 arg3 harg3 arg4 harg4 v0 X1 X2 G n :=
      pb_succ arg1 arg2 X1 X2 𝒱 c bd i harg1 harg2 arg3 harg3 arg4 harg4 v0 G ⟨n, hlt⟩
    rw [e]
    by_cases hc : h.val < 14 * n
    · refine (View.read_writes_cons_unit_of_not_mem v G₀ (k0_off4_inb ⟨n, hlt⟩) (tripVal arg1 arg2 X1 X2 v0 ⟨n, hlt⟩) _
        (ix4 (0 : Fin 1) h wd f) (k0_off4_eq ⟨n, hlt⟩) ⟨1, by decide⟩ (Or.inl ?_)).trans
        (read_pb v G₀ n (Nat.le_of_lt hlt) h wd f hc)
      show h.val < 14 * n
      exact hc
    · have hk : chunk h = ⟨n, hlt⟩ := Fin.ext (by show h.val / 14 = n; omega)
      rw [hk]
      exact View.read_writes_cons_unit_of_mem v G₀ (k0_off4_inb ⟨n, hlt⟩) (tripVal arg1 arg2 X1 X2 v0 ⟨n, hlt⟩) _
        (ix4 (0 : Fin 1) h wd f) (ix4 (0 : Fin 1) (rowIn h) wd f) (k0_off4_eq ⟨n, hlt⟩) (fun a => match a with
          | ⟨0, _⟩ => by show (0 : ℕ) = 0 + 0; rfl
          | ⟨1, _⟩ => by show h.val = 14 * n + h.val % 14; omega
          | ⟨2, _⟩ => by show wd.val = 0 + wd.val; omega
          | ⟨3, _⟩ => by show f.val = 0 + f.val; omega)

end Pieces

section Loads

variable (arg1 : Memref sig .tc .vmem S1x128x128x64 .f32) (arg2 : Memref sig .tc .vmem S576x128 .f32)
  (harg1 : arg1.IsWhole) (harg2 : arg2.IsWhole)
  (x0 : Vec F S1x128x128x64 .f32) (x1 : Vec F S576x128 .f32)

/-- Trip k's patch for the taps of column offset 0: the image block at rows 14·k + di + r, columns wd. -/
theorem patch0_apply (k : Fin k0_t1_loop.trips) (di : Fin 3) (r : Fin 14) (wd : Fin 126) (ch : Fin 64) :
    patch0 arg1 (harg1.unread x0) k di (ix4 (0 : Fin 1) r wd ch)
      = x0 (ix4 (0 : Fin 1) (⟨14 * k.val + di.val + r.val, by have h1 := k.isLt; have h2 := trips_eq; omega⟩ : Fin 128)
          (⟨wd.val + 0, by omega⟩ : Fin 128) ch) := by
  unfold patch0
  rw [View.readAt_apply, harg1.read_unread]
  refine congrArg x0 (funext fun a => Fin.ext ?_)
  show (k0_off1 k (BitVec.ofNat 32 di.val)) a + 1 * ((ix4 (0 : Fin 1) r wd ch) a).val = _
  rw [k0_off1_eq k di]
  match a with
  | ⟨0, _⟩ => show 0 + 1 * 0 = 0; rfl
  | ⟨1, _⟩ => show 14 * k.val + di.val + 1 * r.val = 14 * k.val + di.val + r.val; omega
  | ⟨2, _⟩ => show 0 + 1 * wd.val = wd.val + 0; omega
  | ⟨3, _⟩ => show 0 + 1 * ch.val = ch.val; omega

/-- Column offset 1. -/
theorem patch1_apply (k : Fin k0_t1_loop.trips) (di : Fin 3) (r : Fin 14) (wd : Fin 126) (ch : Fin 64) :
    patch1 arg1 (harg1.unread x0) k di (ix4 (0 : Fin 1) r wd ch)
      = x0 (ix4 (0 : Fin 1) (⟨14 * k.val + di.val + r.val, by have h1 := k.isLt; have h2 := trips_eq; omega⟩ : Fin 128)
          (⟨wd.val + 1, by omega⟩ : Fin 128) ch) := by
  unfold patch1
  rw [View.readAt_apply, harg1.read_unread]
  refine congrArg x0 (funext fun a => Fin.ext ?_)
  show (k0_off2 k (BitVec.ofNat 32 di.val)) a + 1 * ((ix4 (0 : Fin 1) r wd ch) a).val = _
  rw [k0_off2_eq k di]
  match a with
  | ⟨0, _⟩ => show 0 + 1 * 0 = 0; rfl
  | ⟨1, _⟩ => show 14 * k.val + di.val + 1 * r.val = 14 * k.val + di.val + r.val; omega
  | ⟨2, _⟩ => show 1 + 1 * wd.val = wd.val + 1; omega
  | ⟨3, _⟩ => show 0 + 1 * ch.val = ch.val; omega

/-- Column offset 2. -/
theorem patch2_apply (k : Fin k0_t1_loop.trips) (di : Fin 3) (r : Fin 14) (wd : Fin 126) (ch : Fin 64) :
    patch2 arg1 (harg1.unread x0) k di (ix4 (0 : Fin 1) r wd ch)
      = x0 (ix4 (0 : Fin 1) (⟨14 * k.val + di.val + r.val, by have h1 := k.isLt; have h2 := trips_eq; omega⟩ : Fin 128)
          (⟨wd.val + 2, by omega⟩ : Fin 128) ch) := by
  unfold patch2
  rw [View.readAt_apply, harg1.read_unread]
  refine congrArg x0 (funext fun a => Fin.ext ?_)
  show (k0_off3 k (BitVec.ofNat 32 di.val)) a + 1 * ((ix4 (0 : Fin 1) r wd ch) a).val = _
  rw [k0_off3_eq k di]
  match a with
  | ⟨0, _⟩ => show 0 + 1 * 0 = 0; rfl
  | ⟨1, _⟩ => show 14 * k.val + di.val + 1 * r.val = 14 * k.val + di.val + r.val; omega
  | ⟨2, _⟩ => show 2 + 1 * wd.val = wd.val + 2; omega
  | ⟨3, _⟩ => show 0 + 1 * ch.val = ch.val; omega

/-- The slab from row o: the weight block's rows o + c. -/
theorem slab_apply (o : ℕ) (h : ∀ a, (![o, 0] : Fin 2 → ℕ) a + S64x128.size a ≤ S576x128.size a) (ho : o + 64 ≤ 576)
    (ch : Fin 64) (f : Fin 128) :
    slab arg2 (harg2.unread x1) o h (ix2 ch f) = x1 (ix2 (⟨o + ch.val, by omega⟩ : Fin 576) f) := by
  unfold slab
  rw [View.readAt_apply, harg2.read_unread]
  refine congrArg x1 (funext fun a => Fin.ext ?_)
  show (![o, 0] : Fin 2 → ℕ) a + 1 * ((ix2 ch f) a).val = _
  match a with
  | ⟨0, _⟩ => show o + 1 * ch.val = o + ch.val; omega
  | ⟨1, _⟩ => show 0 + 1 * f.val = f.val; omega

/-- The bias load reads the whole bias vector. -/
theorem bias_apply (arg3 : Memref sig .tc .vmem S128 .f32) (harg3 : arg3.IsWhole) (x2 : Vec F S128 .f32) (f : Fin 128) :
    View.readAt (Elt F) arg3.view (Rect.unit (s := S128) ![0] S128.size inb_S128_S128_0).toLoadRect (harg3.unread x2) (ix1 f)
      = x2 (ix1 f) := by
  rw [View.readAt_apply, harg3.read_unread]
  refine congrArg x2 (funext fun a => Fin.ext ?_)
  show (![0] : Fin 1 → ℕ) a + 1 * ((ix1 f) a).val = _
  match a with
  | ⟨0, _⟩ => show 0 + 1 * f.val = f.val; omega

end Loads

end Cert.KernelIdeal.Trip

end
-- ==== Proof.BodyOutI.lean ====
/-
  What the kernel body leaves in the output block, read at an entry: the value that the trip owning the entry's row stored
  there.  The body's run names the block's contents as the loop's nine pieces written over junk; the nine rectangles
  tile the block's 126 rows, so entry (h, wd, f) reads trip h / 14's value at row h % 14 of its chunk — a function of
  the image block, the weight block and the bias the body was handed, and of nothing else.
-/
import proofs.«163647_j44822278701238_2_alg».proof.Proof.FrameI
import proofs.«163647_j44822278701238_2_alg».proof.Proof.BodyReadI

set_option maxRecDepth 16384

noncomputable section

namespace Cert.KernelIdeal.Trip

open Cert.KernelIdeal Cert.KernelIdeal.Gen
open Idealize.ShloMosaic Idealize.ShloMosaic.TcCoe Idealize.ShloMosaic.ValueIdx

variable {F : FTy → Type} [FloatOps F]

/-- The bias vector as the body loads it. -/
def biasLoad (arg3 : Memref sig .tc .vmem S128 .f32) (harg3 : arg3.IsWhole) (x2 : Vec F S128 .f32) : Vec F S128 .f32 :=
  View.readAt (Elt F) arg3.view (Rect.unit (s := S128) ![0] S128.size inb_S128_S128_0).toLoadRect (harg3.unread x2)

/-- Entry (h, wd, f) of the block the body leaves: what trip h / 14 stored at row h % 14. -/
theorem out_read (c : Dev nD) (i : grid0.Coords) (arg1 : Memref sig .tc .vmem S1x128x128x64 .f32) (harg1 : arg1.IsWhole)
    (arg2 : Memref sig .tc .vmem S576x128 .f32) (harg2 : arg2.IsWhole) (arg3 : Memref sig .tc .vmem S128 .f32) (harg3 : arg3.IsWhole)
    (arg4 : Memref sig .tc .vmem S1x126x126x128 .f32) (harg4 : arg4.IsWhole)
    (x0 : Vec F S1x128x128x64 .f32) (x1 : Vec F S576x128 .f32) (x2 : Vec F S128 .f32) (h wd : Fin 126) (f : Fin 128) :
    GenP.out0_A_3 (F := F) c i arg1 harg1 arg2 harg2 arg3 harg3 arg4 harg4 x0 x1 x2 (ix4 (0 : Fin 1) h wd f)
      = tripVal arg1 arg2 (harg1.unread x0) (harg2.unread x1) (biasLoad arg3 harg3 x2) (chunk h) (ix4 (0 : Fin 1) (rowIn h) wd f) := by
  unfold GenP.out0_A_3
  exact read_pb arg1 arg2 (harg1.unread x0) (harg2.unread x1) Variants.none c none i harg1 harg2 arg3 harg3 arg4 harg4
    (biasLoad arg3 harg3 x2) arg4.view.junk VO0_3 VO0_3.junk k0_t1_loop.trips (Nat.le_refl _) h wd f
    (by have h1 := trips_eq; have h2 := h.isLt; omega)

end Cert.KernelIdeal.Trip

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Payload.lean ====
/-
  The arithmetic of the kernel's loop body, read at one index of what it stores.

  One trip of the loop takes nine patches of the image block, each [1,14,126,64], and nine slabs of the weight block,
  each [64,128].  A patch is flattened to a [1764,64] matrix whose row 126·r + wd is the patch's position (r, wd), a slab
  is used as it is, and the two are multiplied rows by columns.  The nine products are added in order onto zero, the bias
  row is added to every row, and the [1764,128] sum is unflattened to [1,14,126,128].  Read at (0, r, wd, f), the stored
  value is therefore the sum over the nine taps of the inner product of the patch's 64 channels at (r, wd) with column f
  of the slab, plus the bias at f.
-/
import proofs.«163647_j44822278701238_2_alg».proof.Proof.Gen.KernelIdeal.Skeleton
import proofs.«163647_j44822278701238_2_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload
open Cert.KernelIdeal Cert.KernelIdeal.Gen Idealize.ShloMosaic Idealize.ShloMosaic.ValueIdx

/-- One tap's product at row (r, wd) of the chunk and filter f: the patch's 64 channels against the slab's column. -/
def tapDot (P : Vec Ideal S1x14x126x64 .f32) (W : Vec Ideal S64x128 .f32) (r : Fin 14) (wd : Fin 126) (f : Fin 128) : EReal :=
  ∑ c : Fin 64, P (ix4 (0 : Fin 1) r wd c) * W (ix2 c f)

/-- The row of the flattened [1764, ·] matrix that holds position (r, wd) of the [14,126, ·] chunk. -/
def rowOf (r : Fin 14) (wd : Fin 126) : Fin 1764 := ⟨126 * r.val + wd.val, by omega⟩

/-- A patch as the matrix the product takes: flattened to [1764,64], rounded in between. -/
def flatPatch (P : Vec Ideal S1x14x126x64 .f32) : FVec Ideal S1764x64 .bf16 :=
  shapeCast S1764x64
    (truncf .bf16 (shapeCast S14x126x64 P shapeCasts_S1x14x126x64_S14x126x64 : FVec Ideal S14x126x64 .f32) bitsLt_bf16_f32 :
      FVec Ideal S14x126x64 .bf16)
    shapeCasts_S14x126x64_S1764x64

/-- A slab as the matrix the product takes: cast to its own shape and rounded. -/
def roundSlab (W : Vec Ideal S64x128 .f32) : FVec Ideal S64x128 .bf16 :=
  truncf .bf16 (shapeCast S64x128 W shapeCasts_S64x128_S64x128 : FVec Ideal S64x128 .f32) bitsLt_bf16_f32

/-- One tap's matrix product, accumulated into the zero matrix. -/
def tapProd (P : Vec Ideal S1x14x126x64 .f32) (W : Vec Ideal S64x128 .f32) : FVec Ideal S1764x128 .f32 :=
  matmul dot_S1764x64_S64x128_S1764x128_1_0_0_1_n_n none (flatPatch P) (roundSlab W) (constant S1764x128 .f32 0x00000000#32)

/-- The flattened patch at row 126·r + wd and column c is the patch at (0, r, wd, c). -/
theorem flatPatch_apply (P : Vec Ideal S1x14x126x64 .f32) (r : Fin 14) (wd : Fin 126) (c : Fin 64) :
    flatPatch P (ix2 (rowOf r wd) c) = P (ix4 (0 : Fin 1) r wd c) := by
  unfold flatPatch
  refine (shapeCast_apply _ shapeCasts_S14x126x64_S1764x64 (ix2 (rowOf r wd) c) (ix3 r wd c) ?_).trans ?_
  · rw [Shape.rowMajor_val_three, Shape.rowMajor_val_two]
    show (r.val * 126 + wd.val) * 64 + c.val = (126 * r.val + wd.val) * 64 + c.val
    omega
  · exact shapeCast_1abc_abc_apply P shapeCasts_S1x14x126x64_S14x126x64 r wd c

/-- The slab the product takes is the slab. -/
theorem roundSlab_eq (W : Vec Ideal S64x128 .f32) : roundSlab W = W := by
  unfold roundSlab
  rw [shapeCast_self]
  rfl

/-- One tap's product at row 126·r + wd and column f: the inner product of the patch's channels at (r, wd) with the
    slab's column f. The product's dimension numbers are the plain ones (rows by columns). -/
theorem tapProd_apply (P : Vec Ideal S1x14x126x64 .f32) (W : Vec Ideal S64x128 .f32) (r : Fin 14) (wd : Fin 126) (f : Fin 128) :
    tapProd P W (ix2 (rowOf r wd) f) = tapDot P W r wd f := by
  have hD : dot_S1764x64_S64x128_S1764x128_1_0_0_1_n_n = DotDims.plain 1764 64 128 := rfl
  unfold tapProd tapDot
  rw [hD]
  refine (Cert.LibMatmulPlain.matmul_plain_zero_apply none (flatPatch P) (roundSlab W) (rowOf r wd) f).trans ?_
  refine Finset.sum_congr rfl fun c _ => ?_
  rw [flatPatch_apply, roundSlab_eq]

/-- The bias, cast to one row and repeated down the 1764 rows, read at any row and column f is the bias at f. -/
theorem bias_apply (v0 : Vec Ideal S128 .f32) (R : Fin 1764) (f : Fin 128) :
    (broadcastTo S1764x128 (k0_pay1 (F := Ideal) v0) broadcasts_S1x128_S1764x128 : FVec Ideal S1764x128 .f32) (ix2 R f)
      = v0 (ix1 f) := by
  refine (broadcastTo_1b_ab_apply _ broadcasts_S1x128_S1764x128 R f).trans ?_
  exact shapeCast_a_1a_apply v0 shapeCasts_S128_S1x128 0 f

/-- A [1764,128] matrix unflattened to [14,126,128] and then [1,14,126,128], read at (0, r, wd, f), is the matrix at
    row 126·r + wd and column f. -/
theorem unflat_apply (X : FVec Ideal S1764x128 .f32) (r : Fin 14) (wd : Fin 126) (f : Fin 128) :
    (shapeCast S1x14x126x128 (shapeCast S14x126x128 X shapeCasts_S1764x128_S14x126x128 : FVec Ideal S14x126x128 .f32)
        shapeCasts_S14x126x128_S1x14x126x128 : FVec Ideal S1x14x126x128 .f32) (ix4 (0 : Fin 1) r wd f)
      = X (ix2 (rowOf r wd) f) := by
  refine (shapeCast_abc_1abc_apply _ shapeCasts_S14x126x128_S1x14x126x128 0 r wd f).trans ?_
  refine shapeCast_apply X shapeCasts_S1764x128_S14x126x128 (ix3 r wd f) (ix2 (rowOf r wd) f) ?_
  rw [Shape.rowMajor_val_three, Shape.rowMajor_val_two]
  show (126 * r.val + wd.val) * 128 + f.val = (r.val * 126 + wd.val) * 128 + f.val
  omega

/-- The first three taps: their products added in order onto the zero matrix. -/
theorem pay2_eq (v7 : Vec Ideal S1x14x126x64 .f32) (v11 : Vec Ideal S64x128 .f32) (v18 : Vec Ideal S1x14x126x64 .f32)
    (v22 : Vec Ideal S64x128 .f32) (v29 : Vec Ideal S1x14x126x64 .f32) (v33 : Vec Ideal S64x128 .f32) :
    k0_pay2 (F := Ideal) v7 v11 v18 v22 v29 v33
      = addf (addf (addf (broadcast S1764x128 (Scalar.ofBits (F := Ideal) .f32 0x00000000#32)) (tapProd v7 v11)) (tapProd v18 v22)) (tapProd v29 v33) :=
  rfl

/-- The next three taps, added onto what the first three gave. -/
theorem pay3_eq (v37 : FVec Ideal S1764x128 .f32) (v40 : Vec Ideal S1x14x126x64 .f32) (v44 : Vec Ideal S64x128 .f32)
    (v51 : Vec Ideal S1x14x126x64 .f32) (v55 : Vec Ideal S64x128 .f32) (v62 : Vec Ideal S1x14x126x64 .f32) (v66 : Vec Ideal S64x128 .f32) :
    k0_pay3 (F := Ideal) v37 v40 v44 v51 v55 v62 v66 = addf (addf (addf v37 (tapProd v40 v44)) (tapProd v51 v55)) (tapProd v62 v66) :=
  rfl

/-- The last three taps added on, then the bias rows, then the casts back. -/
theorem pay4_eq (v1 : FVec Ideal S1x128 .f32) (v70 : FVec Ideal S1764x128 .f32) (v73 : Vec Ideal S1x14x126x64 .f32)
    (v77 : Vec Ideal S64x128 .f32) (v84 : Vec Ideal S1x14x126x64 .f32) (v88 : Vec Ideal S64x128 .f32)
    (v95 : Vec Ideal S1x14x126x64 .f32) (v99 : Vec Ideal S64x128 .f32) :
    k0_pay4 (F := Ideal) v1 v70 v73 v77 v84 v88 v95 v99
      = shapeCast S1x14x126x128
          (shapeCast S14x126x128
            (addf (addf (addf (addf v70 (tapProd v73 v77)) (tapProd v84 v88)) (tapProd v95 v99))
              (broadcastTo S1764x128 v1 broadcasts_S1x128_S1764x128))
            shapeCasts_S1764x128_S14x126x128 : FVec Ideal S14x126x128 .f32)
          shapeCasts_S14x126x128_S1x14x126x128 :=
  rfl

/-- What one trip stores, read at (0, r, wd, f): zero plus the nine taps' inner products at (r, wd, f), in order, plus the
    bias at f. -/
theorem pay_apply (v0 : Vec Ideal S128 .f32)
    (v7 v18 v29 v40 v51 v62 v73 v84 v95 : Vec Ideal S1x14x126x64 .f32) (v11 v22 v33 v44 v55 v66 v77 v88 v99 : Vec Ideal S64x128 .f32)
    (r : Fin 14) (wd : Fin 126) (f : Fin 128) :
    k0_pay4 (F := Ideal) (k0_pay1 v0) (k0_pay3 (k0_pay2 v7 v11 v18 v22 v29 v33) v40 v44 v51 v55 v62 v66) v73 v77 v84 v88 v95 v99 (ix4 (0 : Fin 1) r wd f)
      = (0 + tapDot v7 v11 r wd f + tapDot v18 v22 r wd f + tapDot v29 v33 r wd f + tapDot v40 v44 r wd f + tapDot v51 v55 r wd f
           + tapDot v62 v66 r wd f + tapDot v73 v77 r wd f + tapDot v84 v88 r wd f + tapDot v95 v99 r wd f) + v0 (ix1 f) := by
  rw [pay4_eq, unflat_apply, pay3_eq, pay2_eq]
  simp only [addf_apply, broadcast_apply, tapProd_apply, bias_apply]
  rw [show (Scalar.ofBits (F := Ideal) .f32 0x00000000#32 : Ideal .f32) = 0 from Ideal.ofBits_zero_f32]

end Cert.KernelIdeal.Payload

end
-- ==== Proof.BodyValueI.lean ====
/-
  What the kernel body leaves in the output block at the ideal values, as one function of the three blocks it is handed.

  Entry (h, wd, f) of the block is the nine taps (di, dj) — each the sum over the 64 channels ch of the image block's
  pixel (h + di, wd + dj, ch) times the weight block's entry (64·(3·di + dj) + ch, f) — added in order onto 0, plus the
  bias at f.  This joins three facts: the entry is what trip h / 14 stored at row h % 14 of its chunk; that stored value
  is the body's arithmetic of the trip's loads, nine inner products and the bias; and trip k's patch for tap (di, dj)
  at chunk row r is the image block's row 14·k + di + r — with k = h / 14 and r = h % 14 that is row h + di.
-/
import proofs.«163647_j44822278701238_2_alg».proof.Proof.BodyOutI
import proofs.«163647_j44822278701238_2_alg».proof.Proof.Payload

set_option maxRecDepth 16384

noncomputable section

open scoped BigOperators

namespace Cert.KernelIdeal.Body

open Cert.KernelIdeal Cert.KernelIdeal.Gen Cert.KernelIdeal.Trip Cert.KernelIdeal.Payload
open Idealize.ShloMosaic Idealize.ShloMosaic.TcCoe Idealize.ShloMosaic.ValueIdx

/-- One tap of one block: channels of the image block's pixel (h + di, wd + dj) against rows 64·(3·di + dj) + ch of the
    weight block. -/
def blockTap (x0 : Vec Ideal S1x128x128x64 .f32) (x1 : Vec Ideal S576x128 .f32) (h wd : Fin 126) (f : Fin 128) (di dj : Fin 3) : EReal :=
  ∑ ch : Fin 64, x0 (ix4 (0 : Fin 1) (⟨h.val + di.val, by omega⟩ : Fin 128) (⟨wd.val + dj.val, by omega⟩ : Fin 128) ch)
      * x1 (ix2 (⟨64 * (3 * di.val + dj.val) + ch.val, by omega⟩ : Fin 576) f)

/-- The block the body leaves, entry by entry: the nine taps added in order onto 0, then the bias. -/
def blockConv (x0 : Vec Ideal S1x128x128x64 .f32) (x1 : Vec Ideal S576x128 .f32) (x2 : Vec Ideal S128 .f32) (h wd : Fin 126) (f : Fin 128) : EReal :=
  (0 + blockTap x0 x1 h wd f 0 0 + blockTap x0 x1 h wd f 0 1 + blockTap x0 x1 h wd f 0 2
     + blockTap x0 x1 h wd f 1 0 + blockTap x0 x1 h wd f 1 1 + blockTap x0 x1 h wd f 1 2
     + blockTap x0 x1 h wd f 2 0 + blockTap x0 x1 h wd f 2 1 + blockTap x0 x1 h wd f 2 2) + x2 (ix1 f)

/-- A tap's inner product over the trip's loads is the block's tap, given what the patch and the slab read. -/
theorem tapDot_eq (P : Vec Ideal S1x14x126x64 .f32) (W : Vec Ideal S64x128 .f32) (x0 : Vec Ideal S1x128x128x64 .f32)
    (x1 : Vec Ideal S576x128 .f32) (h wd : Fin 126) (f : Fin 128) (di dj : Fin 3) (r : Fin 14)
    (hP : ∀ ch : Fin 64, P (ix4 (0 : Fin 1) r wd ch)
      = x0 (ix4 (0 : Fin 1) (⟨h.val + di.val, by omega⟩ : Fin 128) (⟨wd.val + dj.val, by omega⟩ : Fin 128) ch))
    (hW : ∀ ch : Fin 64, W (ix2 ch f) = x1 (ix2 (⟨64 * (3 * di.val + dj.val) + ch.val, by omega⟩ : Fin 576) f)) :
    tapDot P W r wd f = blockTap x0 x1 h wd f di dj :=
  Finset.sum_congr rfl fun ch _ => by rw [hP ch, hW ch]

section

variable (arg1 : Memref sig .tc .vmem S1x128x128x64 .f32) (harg1 : arg1.IsWhole) (arg2 : Memref sig .tc .vmem S576x128 .f32) (harg2 : arg2.IsWhole)
  (x0 : Vec Ideal S1x128x128x64 .f32) (x1 : Vec Ideal S576x128 .f32) (h wd : Fin 126)

/-- The row trip h / 14 reads for tap row di at chunk row h % 14 is row h + di. -/
theorem row_eq (di : Fin 3) : 14 * (chunk h).val + di.val + (rowIn h).val = h.val + di.val := by
  rw [chunk_val, rowIn_val]; omega

theorem hP0 (di : Fin 3) (ch : Fin 64) :
    patch0 arg1 (harg1.unread x0) (chunk h) di (ix4 (0 : Fin 1) (rowIn h) wd ch)
      = x0 (ix4 (0 : Fin 1) (⟨h.val + di.val, by omega⟩ : Fin 128) (⟨wd.val + (0 : Fin 3).val, by omega⟩ : Fin 128) ch) := by
  rw [patch0_apply]
  exact congrArg x0 (funext fun a => Fin.ext (by
    match a with
    | ⟨0, _⟩ => rfl
    | ⟨1, _⟩ => exact row_eq h di
    | ⟨2, _⟩ => rfl
    | ⟨3, _⟩ => rfl))

theorem hP1 (di : Fin 3) (ch : Fin 64) :
    patch1 arg1 (harg1.unread x0) (chunk h) di (ix4 (0 : Fin 1) (rowIn h) wd ch)
      = x0 (ix4 (0 : Fin 1) (⟨h.val + di.val, by omega⟩ : Fin 128) (⟨wd.val + (1 : Fin 3).val, by omega⟩ : Fin 128) ch) := by
  rw [patch1_apply]
  exact congrArg x0 (funext fun a => Fin.ext (by
    match a with
    | ⟨0, _⟩ => rfl
    | ⟨1, _⟩ => exact row_eq h di
    | ⟨2, _⟩ => rfl
    | ⟨3, _⟩ => rfl))

theorem hP2 (di : Fin 3) (ch : Fin 64) :
    patch2 arg1 (harg1.unread x0) (chunk h) di (ix4 (0 : Fin 1) (rowIn h) wd ch)
      = x0 (ix4 (0 : Fin 1) (⟨h.val + di.val, by omega⟩ : Fin 128) (⟨wd.val + (2 : Fin 3).val, by omega⟩ : Fin 128) ch) := by
  rw [patch2_apply]
  exact congrArg x0 (funext fun a => Fin.ext (by
    match a with
    | ⟨0, _⟩ => rfl
    | ⟨1, _⟩ => exact row_eq h di
    | ⟨2, _⟩ => rfl
    | ⟨3, _⟩ => rfl))

/-- The slab from row 64·(3·di + dj) read at (ch, f). -/
theorem hW (o : ℕ) (hin : ∀ a, (![o, 0] : Fin 2 → ℕ) a + S64x128.size a ≤ S576x128.size a) (di dj : Fin 3)
    (ho : o = 64 * (3 * di.val + dj.val)) (f : Fin 128) (ch : Fin 64) :
    slab arg2 (harg2.unread x1) o hin (ix2 ch f) = x1 (ix2 (⟨64 * (3 * di.val + dj.val) + ch.val, by omega⟩ : Fin 576) f) := by
  rw [slab_apply arg2 harg2 x1 o hin (by omega) ch f]
  exact congrArg x1 (funext fun a => Fin.ext (by
    match a with
    | ⟨0, _⟩ => show o + ch.val = 64 * (3 * di.val + dj.val) + ch.val; omega
    | ⟨1, _⟩ => rfl))

end

/-- THE BODY'S BLOCK at the ideal values: entry (h, wd, f) is `blockConv` of the three blocks the body was handed. -/
theorem out_apply (c : Dev nD) (i : grid0.Coords) (arg1 : Memref sig .tc .vmem S1x128x128x64 .f32) (harg1 : arg1.IsWhole)
    (arg2 : Memref sig .tc .vmem S576x128 .f32) (harg2 : arg2.IsWhole) (arg3 : Memref sig .tc .vmem S128 .f32) (harg3 : arg3.IsWhole)
    (arg4 : Memref sig .tc .vmem S1x126x126x128 .f32) (harg4 : arg4.IsWhole)
    (x0 : Vec Ideal S1x128x128x64 .f32) (x1 : Vec Ideal S576x128 .f32) (x2 : Vec Ideal S128 .f32) (h wd : Fin 126) (f : Fin 128) :
    GenP.out0_A_3 (F := Ideal) c i arg1 harg1 arg2 harg2 arg3 harg3 arg4 harg4 x0 x1 x2 (ix4 (0 : Fin 1) h wd f)
      = blockConv x0 x1 x2 h wd f := by
  rw [out_read]
  unfold tripVal
  rw [pay_apply]
  unfold blockConv
  rw [tapDot_eq _ _ x0 x1 h wd f 0 0 (rowIn h) (hP0 arg1 harg1 x0 h wd 0) (hW arg2 harg2 x1 0 _ 0 0 rfl f),
    tapDot_eq _ _ x0 x1 h wd f 0 1 (rowIn h) (hP1 arg1 harg1 x0 h wd 0) (hW arg2 harg2 x1 64 _ 0 1 rfl f),
    tapDot_eq _ _ x0 x1 h wd f 0 2 (rowIn h) (hP2 arg1 harg1 x0 h wd 0) (hW arg2 harg2 x1 128 _ 0 2 rfl f),
    tapDot_eq _ _ x0 x1 h wd f 1 0 (rowIn h) (hP0 arg1 harg1 x0 h wd 1) (hW arg2 harg2 x1 192 _ 1 0 rfl f),
    tapDot_eq _ _ x0 x1 h wd f 1 1 (rowIn h) (hP1 arg1 harg1 x0 h wd 1) (hW arg2 harg2 x1 256 _ 1 1 rfl f),
    tapDot_eq _ _ x0 x1 h wd f 1 2 (rowIn h) (hP2 arg1 harg1 x0 h wd 1) (hW arg2 harg2 x1 320 _ 1 2 rfl f),
    tapDot_eq _ _ x0 x1 h wd f 2 0 (rowIn h) (hP0 arg1 harg1 x0 h wd 2) (hW arg2 harg2 x1 384 _ 2 0 rfl f),
    tapDot_eq _ _ x0 x1 h wd f 2 1 (rowIn h) (hP1 arg1 harg1 x0 h wd 2) (hW arg2 harg2 x1 448 _ 2 1 rfl f),
    tapDot_eq _ _ x0 x1 h wd f 2 2 (rowIn h) (hP2 arg1 harg1 x0 h wd 2) (hW arg2 harg2 x1 512 _ 2 2 rfl f)]
  exact congrArg _ (Trip.bias_apply arg3 harg3 x2 f)

end Cert.KernelIdeal.Body

end
-- ==== Proof.ConvSpec.lean ====
/-
  The 3 by 3 "valid" convolution of an [8, 128, 128, 64] image batch with 128 filters, as one function of the three
  argument arrays, with no program in sight.

  Output entry (n, h, w, f) is the sum over the nine taps (di, dj) ∈ {0,1,2}² and the 64 channels c of
  x[n, h + di, w + dj, c] · wgt[f, 64·(3·di + dj) + c], plus the bias b[f].  The weight matrix is [128, 576]: a filter's
  576 coefficients are the nine taps' 64 channels laid end to end, tap 3·di + dj first to last.

  The nine taps are written out one after the other, each the sum over its 64 channels, added from left to right onto 0;
  `Cert.RefConv.sum576_eq_taps` (in the module that reads the reference) says that a single sum over all 576 coefficients of a filter is the same number: addition of extended
  reals is commutative and associative (nothing else is used, so no finiteness is needed), the coefficient k = 64·p + c
  belonging to tap p = k / 64 and channel c = k % 64.
-/
import Idealize.ShloMosaic.PureOps.Ideal
import Idealize.ShloMosaic.Lib.ValueIdx

noncomputable section

open scoped BigOperators

namespace Cert.ConvSpec

open Idealize.ShloMosaic Idealize.ShloMosaic.ValueIdx

/-- The image batch, the weights, the bias and the result, as shapes. -/
abbrev SX : Shape := ⟨4, ![8, 128, 128, 64]⟩
abbrev SW : Shape := ⟨2, ![128, 576]⟩
abbrev SB : Shape := ⟨1, ![128]⟩
abbrev SO : Shape := ⟨4, ![8, 126, 126, 128]⟩

/-- The input pixel that tap (di, dj) of output position (h, w) reads, at channel c. -/
def pix (n : Fin 8) (h w : Fin 126) (di dj : Fin 3) (c : Fin 64) : SX.Idx :=
  ix4 n (⟨h.val + di.val, by omega⟩ : Fin 128) (⟨w.val + dj.val, by omega⟩ : Fin 128) c

/-- The coefficient of filter f that multiplies channel c of tap (di, dj). -/
def coef (f : Fin 128) (di dj : Fin 3) (c : Fin 64) : SW.Idx :=
  ix2 f (⟨64 * (3 * di.val + dj.val) + c.val, by omega⟩ : Fin 576)

/-- One tap's contribution: the sum over the 64 channels. -/
def tap (x : SX.Idx → EReal) (wgt : SW.Idx → EReal) (n : Fin 8) (h w : Fin 126) (f : Fin 128) (di dj : Fin 3) : EReal :=
  ∑ c : Fin 64, x (pix n h w di dj c) * wgt (coef f di dj c)

/-- The convolution at output entry (n, h, w, f): the nine taps added in order onto 0, then the bias. -/
def convAt (x : SX.Idx → EReal) (wgt : SW.Idx → EReal) (b : SB.Idx → EReal) (n : Fin 8) (h w : Fin 126) (f : Fin 128) : EReal :=
  (0 + tap x wgt n h w f 0 0 + tap x wgt n h w f 0 1 + tap x wgt n h w f 0 2
     + tap x wgt n h w f 1 0 + tap x wgt n h w f 1 1 + tap x wgt n h w f 1 2
     + tap x wgt n h w f 2 0 + tap x wgt n h w f 2 1 + tap x wgt n h w f 2 2) + b (ix1 f)

/-- The convolution as one function of the output index. -/
def conv (x : SX.Idx → EReal) (wgt : SW.Idx → EReal) (b : SB.Idx → EReal) : SO.Idx → EReal :=
  fun i => convAt x wgt b (i 0) (i 1) (i 2) (i 3)

theorem conv_ix4 (x : SX.Idx → EReal) (wgt : SW.Idx → EReal) (b : SB.Idx → EReal) (n : Fin 8) (h w : Fin 126) (f : Fin 128) :
    conv x wgt b (ix4 n h w f) = convAt x wgt b n h w f := rfl

end Cert.ConvSpec

end
-- ==== Proof.KernelValueI.lean ====
/-
  From the blocks to the array: after the run, the result array is the 3 by 3 convolution of the three arguments.

  The grid has 8 points, one per image of the batch.  At point t the pipeline hands the body block t of the image batch
  (image t, whole), the whole transposed weight matrix and the whole bias, and writes back block t of the result: the
  [1,126,126,128] slab at (t, ·, ·, ·).  The weight matrix the body sees is the [576,128] transpose that one host operation
  makes of the [128,576] argument before the region, so its entry (k, f) is the argument's entry (f, k).

  The body leaves in its output block, at (0, h, wd, f), nine taps of its image block against its weight block plus its
  bias.  Reading each block where its window puts it turns a tap of the blocks into the same tap of image t of the
  arguments, so what point t writes back is block t of the convolution; the 8 blocks cover the result array (entry
  (n, h, wd, f) lies in point n's block), so the array ends holding the convolution.  The three arguments are left as
  launched.
-/
import proofs.«163647_j44822278701238_2_alg».proof.Proof.BodyValueI
import proofs.«163647_j44822278701238_2_alg».proof.Proof.ConvSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The grid's point as the image's index in the batch of 8. -/
def pt (t : Fin cfg0.N) : Fin 8 := ⟨t.val, lt_of_lt_of_eq t.isLt N_0⟩

/-- The windows' index maps over the grid: the image batch and the result move with the point along their first axis and
    sit at block 0 on the others; the weight matrix and the bias are one whole block at index 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The weight matrix as the region finds it: the transpose the host operation made of the argument. -/
theorem weights_eq (c : Dev nD) :
    (V m c main_v0 : S576x128.Idx → EReal)
      = transpose S576x128 [1, 0] (m ((c : Thread nD τ).loc main_arg1) : S128x576.Idx → EReal) transposes_S128x576_S576x128_1_0 := by
  dsimp only [Gen.V, Gen.hostOps0]; after_results

/-- Its entry (k, f) is the argument's entry (f, k). -/
theorem weights_apply (c : Dev nD) (k : Fin 576) (f : Fin 128) :
    (V m c main_v0 : S576x128.Idx → EReal) (ix2 k f) = (m ((c : Thread nD τ).loc main_arg1) : S128x576.Idx → EReal) (ix2 f k) := by
  rw [weights_eq]
  exact transpose_ix2_apply _ transposes_S128x576_S576x128_1_0 k f

/-- The image block at point t, read at (0, a, b, ch), is the batch at (t, a, b, ch). -/
theorem imageBlock_apply (c : Dev nD) (t : Fin cfg0.N) (a b : Fin 128) (ch : Fin 64) :
    (iblk m c 0 t : Vec Ideal S1x128x128x64 .f32) (ix4 (0 : Fin 1) a b ch)
      = (m ((c : Thread nD τ).loc main_arg0) : S8x128x128x64.Idx → EReal) (ix4 (pt t) a b ch) := by
  obtain ⟨e0, e1, e2, e3, -⟩ := idx_facts t
  unfold iblk
  rw [View.read_apply]
  show V m c main_arg0 _ = _
  rw [V_main_arg0]
  congr 1
  funext ax
  apply Fin.ext
  match ax with
  | ⟨0, _⟩ => show win0_0.index t (0 : Fin 4) * 1 + 1 * 0 = t.val; omega
  | ⟨1, _⟩ => show win0_0.index t (1 : Fin 4) * 128 + 1 * a.val = a.val; omega
  | ⟨2, _⟩ => show win0_0.index t (2 : Fin 4) * 128 + 1 * b.val = b.val; omega
  | ⟨3, _⟩ => show win0_0.index t (3 : Fin 4) * 64 + 1 * ch.val = ch.val; omega

/-- The weight block at any point, read at (k, f), is the weight argument at (f, k). -/
theorem weightBlock_apply (c : Dev nD) (t : Fin cfg0.N) (k : Fin 576) (f : Fin 128) :
    (iblk m c 1 t : Vec Ideal S576x128 .f32) (ix2 k f)
      = (m ((c : Thread nD τ).loc main_arg1) : S128x576.Idx → EReal) (ix2 f k) := by
  obtain ⟨-, -, -, -, e4, e5, -⟩ := idx_facts t
  unfold iblk
  rw [View.read_apply]
  show V m c main_v0 _ = _
  refine Eq.trans (congrArg (V m c main_v0) ?_) (weights_apply m c k f)
  funext ax
  apply Fin.ext
  match ax with
  | ⟨0, _⟩ => show win0_1.index t (0 : Fin 2) * 576 + 1 * k.val = k.val; omega
  | ⟨1, _⟩ => show win0_1.index t (1 : Fin 2) * 128 + 1 * f.val = f.val; omega

/-- The bias block at any point is the bias argument. -/
theorem biasBlock_apply (c : Dev nD) (t : Fin cfg0.N) (f : Fin 128) :
    (iblk m c 2 t : Vec Ideal S128 .f32) (ix1 f)
      = (m ((c : Thread nD τ).loc main_arg2) : S128.Idx → EReal) (ix1 f) := by
  obtain ⟨-, -, -, -, -, -, e6, -⟩ := idx_facts t
  unfold iblk
  rw [View.read_apply]
  show V m c main_arg2 _ = _
  rw [V_main_arg2]
  congr 1
  funext ax
  apply Fin.ext
  match ax with
  | ⟨0, _⟩ => show win0_2.index t (0 : Fin 1) * 128 + 1 * f.val = f.val; omega

/-- One tap of the block at point t is the tap of image t of the batch. -/
theorem tap_eq (c : Dev nD) (t : Fin cfg0.N) (h wd : Fin 126) (f : Fin 128) (di dj : Fin 3) :
    Body.blockTap (iblk m c 0 t) (iblk m c 1 t) h wd f di dj
      = ConvSpec.tap (m ((c : Thread nD τ).loc main_arg0)) (m ((c : Thread nD τ).loc main_arg1)) (pt t) h wd f di dj := by
  unfold Body.blockTap ConvSpec.tap
  refine Finset.sum_congr rfl fun ch _ => ?_
  exact congrArg₂ (· * ·) (imageBlock_apply m c t _ _ ch) (weightBlock_apply m c t _ f)

/-- So the nine taps and the bias of the blocks at point t are the convolution of the arguments at image t. -/
theorem blockConv_eq (c : Dev nD) (t : Fin cfg0.N) (h wd : Fin 126) (f : Fin 128) :
    Body.blockConv (iblk m c 0 t) (iblk m c 1 t) (iblk m c 2 t) h wd f
      = ConvSpec.convAt (m ((c : Thread nD τ).loc main_arg0)) (m ((c : Thread nD τ).loc main_arg1)) (m ((c : Thread nD τ).loc main_arg2)) (pt t) h wd f := by
  unfold Body.blockConv ConvSpec.convAt
  simp only [tap_eq m c t]
  exact congrArg (_ + ·) (biasBlock_apply m c t f)

/-- The convolution of the three argument arrays as launched. -/
abbrev convOf (c : Dev nD) : S8x126x126x128.Idx → EReal :=
  Cert.ConvSpec.conv (m ((c : Thread nD τ).loc main_arg0)) (m ((c : Thread nD τ).loc main_arg1)) (m ((c : Thread nD τ).loc main_arg2))

/-- Where entry (0, h, wd, f) of point t's output block sits in the result array: at (t, h, wd, f). -/
theorem outBlock_emb (t : Fin cfg0.N) (h wd : Fin 126) (f : Fin 128) :
    ((cfg0.win 3).blk t).view.emb (ix4 (0 : Fin 1) h wd f) = (ix4 (pt t) h wd f : S8x126x126x128.Idx) := by
  obtain ⟨-, -, -, -, -, -, -, e7, e8, e9, e10⟩ := idx_facts t
  funext ax
  apply Fin.ext
  match ax with
  | ⟨0, _⟩ => show win0_3.index t (0 : Fin 4) * 1 + 1 * 0 = t.val; omega
  | ⟨1, _⟩ => show win0_3.index t (1 : Fin 4) * 126 + 1 * h.val = h.val; omega
  | ⟨2, _⟩ => show win0_3.index t (2 : Fin 4) * 126 + 1 * wd.val = wd.val; omega
  | ⟨3, _⟩ => show win0_3.index t (3 : Fin 4) * 128 + 1 * f.val = f.val; omega

/-- Two contents of a [1,126,126,128] block that agree at every (0, h, wd, f) are equal. -/
theorem block_ext (X Y : S1x126x126x128.Idx → EReal)
    (hXY : ∀ (h wd : Fin 126) (f : Fin 128), X (ix4 (0 : Fin 1) h wd f) = Y (ix4 (0 : Fin 1) h wd f)) : X = Y := by
  funext j
  have h0 : (j 0).val < 1 := (j 0).isLt
  have hj : j = ix4 (0 : Fin 1) (j 1) (j 2) (j 3) := by
    funext a
    apply Fin.ext
    match a with
    | ⟨0, _⟩ => show (j 0).val = 0; omega
    | ⟨1, _⟩ => rfl
    | ⟨2, _⟩ => rfl
    | ⟨3, _⟩ => rfl
  rw [hj]
  exact hXY _ _ _

/-- What point t writes back is block t of the convolution of the arguments. -/
theorem flushed_eq (c : Dev nD) (t : Fin cfg0.N) :
    (GenP.dats m 0 c).flushed 3 t = ((cfg0.win 3).blk t).view.read (Elt Ideal) (convOf m c) := by
  show (cfg0.win 3).cut (grid0.coords t) ((GenP.dats m 0 c).after 3 t) = _
  rw [GenP.after0_3]
  unfold GenP.outsAt0
  refine block_ext _ _ fun h wd f => ?_
  refine (Body.out_apply c (grid0.coords t) (ms0_0 t) (hs0_0 t) (ms0_1 t) (hs0_1 t) (ms0_2 t) (hs0_2 t) (ms0_3 t) (hs0_3 t)
    (iblk m c 0 t) (iblk m c 1 t) (iblk m c 2 t) h wd f).trans ?_
  rw [blockConv_eq, View.read_apply]
  show _ = convOf m c (((cfg0.win 3).blk t).view.emb (ix4 (0 : Fin 1) h wd f))
  rw [outBlock_emb]
  rfl

/-- An index of the result array is in point t's block iff each coordinate is in the block's range on its axis. -/
theorem mem_blk (t : Fin cfg0.N) (i : S8x126x126x128.Idx) :
    i ∈ ((cfg0.win 3).blk t).view.set ↔ ∀ a : Fin 4, win0_3.index t a * S1x126x126x128.size a ≤ (i a).val ∧ (i a).val < win0_3.index t a * S1x126x126x128.size a + S1x126x126x128.size a := by
  show i ∈ ((View.whole main_v1).slice (win0_3.rect t)).set ↔ _
  rw [View.set_slice_whole, Rect.mem_set_unit]
  exact Iff.rfl

/-- Every entry (n, h, wd, f) of the result array lies in the block of point n. -/
theorem cover (i : S8x126x126x128.Idx) :
    ∃ t : Fin cfg0.N, (cfg0.win 3).flush t = true ∧ i ∈ ((cfg0.win 3).blk t).view.set := by
  have hN : cfg0.N = 8 := N_0
  have hi0 : (i 0).val < 8 := (i 0).isLt
  have hi1 : (i 1).val < 126 := (i 1).isLt
  have hi2 : (i 2).val < 126 := (i 2).isLt
  have hi3 : (i 3).val < 128 := (i 3).isLt
  obtain ⟨t, ht⟩ : ∃ t : Fin cfg0.N, t.val = (i 0).val := ⟨⟨(i 0).val, by omega⟩, rfl⟩
  refine ⟨t, flush0_3 t, ?_⟩
  rw [mem_blk]
  obtain ⟨-, -, -, -, -, -, -, e7, e8, e9, e10⟩ := idx_facts t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 126 ≤ (i 1).val ∧ (i 1).val < win0_3.index t (1 : Fin 4) * 126 + 126; omega
  | ⟨2, _⟩ => show win0_3.index t (2 : Fin 4) * 126 ≤ (i 2).val ∧ (i 2).val < win0_3.index t (2 : Fin 4) * 126 + 126; omega
  | ⟨3, _⟩ => show win0_3.index t (3 : Fin 4) * 128 ≤ (i 3).val ∧ (i 3).val < win0_3.index t (3 : Fin 4) * 128 + 128; omega

/-- The result array after the run is the convolution of the arguments. -/
theorem final (c : Dev nD) : (GenP.dats m 0 c).arrAt 3 cfg0.N = convOf m c :=
  (GenP.dats m 0 c).arrAt_eq_of_cover 3 (convOf m c) (fun t _ => flushed_eq m c t) cover

/-- After the frame run, the result array is what the pipeline's proof data names. -/
theorem post3 (r : PUnit × MemSt nD τ sig (Elt Ideal)) (h : Pipeline.FramePost cfgs (GenP.dats m) 0 (V m) r) (c : Dev nD) :
    r.2.mem ((c : Thread nD τ).loc main_v1) = (GenP.dats m 0 c).arrAt 3 cfg0.N :=
  (h c).1 3

/-- After the frame run the image batch is as launched: its window stages it and never writes it back. -/
theorem kept_main_arg0 (r : PUnit × MemSt nD τ sig (Elt Ideal)) (h : Pipeline.FramePost cfgs (GenP.dats m) 0 (V m) r) (c : Dev nD) :
    r.2.mem ((c : Thread nD τ).loc main_arg0) = m ((c : Thread nD τ).loc main_arg0) :=
  ((h c).1 0).trans (((GenP.dats m 0 c).arrAt_in 0 rfl _).trans ((GenP.A_eq m c 0).trans (V_main_arg0 m c)))

/-- After the frame run the weight matrix is as launched: no window stages it, and the run leaves the other buffers alone. -/
theorem kept_main_arg1 (r : PUnit × MemSt nD τ sig (Elt Ideal)) (h : Pipeline.FramePost cfgs (GenP.dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run the bias is as launched: its window stages it and never writes it back. -/
theorem kept_main_arg2 (r : PUnit × MemSt nD τ sig (Elt Ideal)) (h : Pipeline.FramePost cfgs (GenP.dats m) 0 (V m) r) (c : Dev nD) :
    r.2.mem ((c : Thread nD τ).loc main_arg2) = m ((c : Thread nD τ).loc main_arg2) :=
  ((h c).1 2).trans (((GenP.dats m 0 c).arrAt_in 2 rfl _).trans ((GenP.A_eq m c 2).trans (V_main_arg2 m c)))

/-- The run, read: the result array ends at the convolution of the three arguments as launched, and the arguments are
    unchanged. -/
theorem run : θ_run defs (onTc (τ := τ) (main (F := Ideal))) ⟨m, fun _ => 0, ρ⟩ fun r => ∀ c : Dev nD,
      r.2.mem ((c : Thread nD τ).loc main_v1) = Cert.ConvSpec.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final m c),
      kept_main_arg0 m r h c,
      kept_main_arg1 m r h c,
      kept_main_arg2 m r h c⟩)
    (GenP.run_main m ρ)

end Cert.KernelIdeal.KValue

end
-- ==== Proof.RefConv.lean ====
/-
  The reference program, read one operation at a time, computes the convolution of `ConvSpec`.

  The program cuts nine shifted [8, 126, 126, 64] windows out of the image batch (offsets (di, dj) ∈ {0,1,2}²), gives
  each a unit axis, joins the nine along that axis ([8, 126, 126, 9, 64]), flattens the last two axes
  ([8, 126, 126, 576]: coordinate 64·p + c is piece p = 3·di + dj, channel c), contracts the 576 axis with the weights
  [128, 576], and adds the bias. So output entry (n, h, w, f) is

      (∑ k < 576, patches(n, h, w, k) · wgt(f, k)) + b(f),   patches(n, h, w, 64·(3·di + dj) + c) = x(n, h + di, w + dj, c).

  `ConvSpec.convAt` writes the same 576 products as nine taps of 64 channels each, added in order onto 0. The two agree
  because a sum over 576 = 9·64 terms is the sum of its nine blocks of 64 (`sum576_eq_taps`): only commutativity and
  associativity of addition of extended reals is used, so nothing is asked of the inputs.

  Order of the file: the regrouping of the sum; the patches array at an index (the reshape, the concatenation, then a
  broadcast and a slice for each of the nine pieces); the contraction and the bias; the whole.
-/
import proofs.«163647_j44822278701238_2_alg».proof.Proof.Gen.ReferenceIdeal.Run
import proofs.«163647_j44822278701238_2_alg».proof.Proof.Gen.ReferenceIdeal.Read
import proofs.«163647_j44822278701238_2_alg».proof.Proof.ConvSpec
import Idealize.ShloMosaic.Lib.Pipeline.Value
import Idealize.ShloMosaic.Lib.ValueIdx
import Idealize.ShloMosaic.PureOps.Ideal.Laws

noncomputable section

open scoped BigOperators

namespace Cert.RefConv

open Idealize.ShloMosaic Idealize.ShloMosaic.ValueIdx Cert.ReferenceIdeal Cert.ReferenceIdeal.Read Cert.ConvSpec

/-! ## A sum of 576 terms as nine blocks of 64 -/

/-- The 64 consecutive terms of block `p`: the terms numbered `64·p + c`, `c < 64`. -/
def blk (g : Fin 576 → EReal) (p : Fin 9) : EReal := ∑ c : Fin 64, g ⟨64 * p.val + c.val, by omega⟩

/-- A sum over 576 = 9·64 terms is the sum of its nine blocks: the term numbered `k` belongs to block `k / 64` at
    place `k % 64`, and addition of extended reals is commutative and associative. -/
theorem sum576_eq_blocks (g : Fin 576 → EReal) :
    ∑ k : Fin 576, g k = ∑ p : Fin 9, blk g p := by
  have e : ∑ k : Fin 576, g k = ∑ pc : Fin 9 × Fin 64, g (finProdFinEquiv pc) :=
    (Equiv.sum_comp (finProdFinEquiv : Fin 9 × Fin 64 ≃ Fin (9 * 64)) g).symm
  rw [e, Fintype.sum_prod_type]
  refine Finset.sum_congr rfl fun p _ => ?_
  refine Finset.sum_congr rfl fun c _ => ?_
  congr 1
  apply Fin.ext
  show c.val + 64 * p.val = 64 * p.val + c.val
  omega

/-- The same sum with the nine blocks written out, added from left to right onto 0. -/
theorem sum576_eq_taps (g : Fin 576 → EReal) :
    ∑ k : Fin 576, g k =
      0 + blk g 0 + blk g 1 + blk g 2 + blk g 3 + blk g 4 + blk g 5 + blk g 6 + blk g 7 + blk g 8 := by
  rw [sum576_eq_blocks, Fin.sum_univ_castSucc, Fin.sum_univ_eight, zero_add]
  rfl

/-! ## The patches array -/

/-- The image batch's contents. -/
abbrev RefX := (⟨S8x128x128x64, .f32⟩ : BufTy).Contents (Elt Ideal)

/-- Row-major position `((n·126 + h)·126 + w)·576 + (64·p + c)` of the [8, 126, 126, 576] array, split over
    [8, 126, 126, 9, 64]: the last axis' coordinate 64·p + c becomes the pair (p, c), the others stay. -/
theorem idx19_eq (n : Fin 8) (h wd : Fin 126) (p : Fin 9) (c : Fin 64) :
    idx_main_v19 (ix4 n h wd (⟨64 * p.val + c.val, by omega⟩ : Fin 576)) = ix5 n h wd p c := by
  have hn := n.isLt; have hh := h.isLt; have hw := wd.isLt; have hp := p.isLt; have hc := c.isLt
  funext a
  apply Fin.ext
  match a with
  | ⟨0, _⟩ => show (((n.val * 126 + h.val) * 126 + wd.val) * 576 + (64 * p.val + c.val)) / 9144576 = n.val; omega
  | ⟨1, _⟩ => show (((n.val * 126 + h.val) * 126 + wd.val) * 576 + (64 * p.val + c.val)) / 72576 % 126 = h.val; omega
  | ⟨2, _⟩ => show (((n.val * 126 + h.val) * 126 + wd.val) * 576 + (64 * p.val + c.val)) / 576 % 126 = wd.val; omega
  | ⟨3, _⟩ => show (((n.val * 126 + h.val) * 126 + wd.val) * 576 + (64 * p.val + c.val)) / 64 % 9 = p.val; omega
  | ⟨4, _⟩ => show (((n.val * 126 + h.val) * 126 + wd.val) * 576 + (64 * p.val + c.val)) % 64 = c.val; omega

/-- The nine broadcast slices, in the order the concatenation joins them. -/
def pieces (x : RefX) : Fin 9 → (⟨S8x126x126x1x64, .f32⟩ : BufTy).Contents (Elt Ideal) :=
  ![val_main_v9 (F := Ideal) x, val_main_v10 (F := Ideal) x, val_main_v11 (F := Ideal) x, val_main_v12 (F := Ideal) x,
    val_main_v13 (F := Ideal) x, val_main_v14 (F := Ideal) x, val_main_v15 (F := Ideal) x, val_main_v16 (F := Ideal) x,
    val_main_v17 (F := Ideal) x]

/-- The joined array at (n, h, w, p, c) is piece p at (n, h, w, 0, c): every piece has extent 1 along the joined axis. -/
theorem v18_at (x : RefX) (n : Fin 8) (h wd : Fin 126) (p : Fin 9) (c : Fin 64) :
    val_main_v18 (F := Ideal) x (ix5 n h wd p c) = pieces x p (ix5 n h wd (0 : Fin 1) c) := by
  unfold val_main_v18
  exact concatenate_ofFn_unit_apply (t := S8x126x126x9x64) (s₁ := S8x126x126x1x64) (3 : Fin 5) (pieces x) _ rfl rfl
    (ix5 n h wd p c) p rfl (ix5 n h wd (0 : Fin 1) c) (fun b hb => match b with
      | ⟨0, _⟩ => rfl
      | ⟨1, _⟩ => rfl
      | ⟨2, _⟩ => rfl
      | ⟨3, _⟩ => absurd rfl hb
      | ⟨4, _⟩ => rfl)

/-- Reading a slice through its broadcast: the coordinates of the image entry read, against the spec's shifted pixel
    (`di + h` in the program, `h + di` in the spec). -/
local macro "shift_idx" : tactic => `(tactic| (
  congr 1
  funext a
  apply Fin.ext
  match a with
  | ⟨0, _⟩ => rfl
  | ⟨1, _⟩ => first | rfl | exact Nat.add_comm _ _
  | ⟨2, _⟩ => first | rfl | exact Nat.add_comm _ _
  | ⟨3, _⟩ => rfl))

/-- Piece 3·di + dj, at (n, h, w, 0, c), is the image at (n, h + di, w + dj, c): the slice that starts at (di, dj),
    given a unit axis by the broadcast. -/
theorem piece_at (x : RefX) (n : Fin 8) (h wd : Fin 126) (di dj : Fin 3) (c : Fin 64) :
    pieces x ⟨3 * di.val + dj.val, by omega⟩ (ix5 n h wd (0 : Fin 1) c) = x (pix n h wd di dj c) := by
  match di, dj with
  | ⟨0, _⟩, ⟨0, _⟩ => show val_main_v9 (F := Ideal) x _ = _; rw [val_main_v9_apply, val_main_v0_apply]; shift_idx
  | ⟨0, _⟩, ⟨1, _⟩ => show val_main_v10 (F := Ideal) x _ = _; rw [val_main_v10_apply, val_main_v1_apply]; shift_idx
  | ⟨0, _⟩, ⟨2, _⟩ => show val_main_v11 (F := Ideal) x _ = _; rw [val_main_v11_apply, val_main_v2_apply]; shift_idx
  | ⟨1, _⟩, ⟨0, _⟩ => show val_main_v12 (F := Ideal) x _ = _; rw [val_main_v12_apply, val_main_v3_apply]; shift_idx
  | ⟨1, _⟩, ⟨1, _⟩ => show val_main_v13 (F := Ideal) x _ = _; rw [val_main_v13_apply, val_main_v4_apply]; shift_idx
  | ⟨1, _⟩, ⟨2, _⟩ => show val_main_v14 (F := Ideal) x _ = _; rw [val_main_v14_apply, val_main_v5_apply]; shift_idx
  | ⟨2, _⟩, ⟨0, _⟩ => show val_main_v15 (F := Ideal) x _ = _; rw [val_main_v15_apply, val_main_v6_apply]; shift_idx
  | ⟨2, _⟩, ⟨1, _⟩ => show val_main_v16 (F := Ideal) x _ = _; rw [val_main_v16_apply, val_main_v7_apply]; shift_idx
  | ⟨2, _⟩, ⟨2, _⟩ => show val_main_v17 (F := Ideal) x _ = _; rw [val_main_v17_apply, val_main_v8_apply]; shift_idx

/-- The patches array: entry (n, h, w, 64·(3·di + dj) + c) of the reshaped concatenation is the image at tap (di, dj)
    of output position (h, w), channel c. -/
theorem patch_at (x : RefX) (n : Fin 8) (h wd : Fin 126) (di dj : Fin 3) (c : Fin 64) :
    val_main_v19 (F := Ideal) x (ix4 n h wd (⟨64 * (3 * di.val + dj.val) + c.val, by omega⟩ : Fin 576))
      = x (pix n h wd di dj c) :=
  (val_main_v19_apply x _).trans <|
    (congrArg (val_main_v18 (F := Ideal) x) (idx19_eq n h wd ⟨3 * di.val + dj.val, by omega⟩ c)).trans <|
      (v18_at x n h wd _ c).trans (piece_at x n h wd di dj c)

/-! ## The contraction, the bias, and the whole -/

/-- The weights' and the bias' contents. -/
abbrev RefW := (⟨S128x576, .f32⟩ : BufTy).Contents (Elt Ideal)
abbrev RefB := (⟨S128, .f32⟩ : BufTy).Contents (Elt Ideal)

/-- Block 3·di + dj of the contraction's 576 products is tap (di, dj) of the convolution. -/
theorem blk_eq_tap (x : RefX) (w : RefW) (n : Fin 8) (h wd : Fin 126) (f : Fin 128) (di dj : Fin 3) :
    blk (fun k => val_main_v19 (F := Ideal) x (ix4 n h wd k) * w (ix2 f k)) ⟨3 * di.val + dj.val, by omega⟩
      = tap x w n h wd f di dj := by
  unfold blk tap
  refine Finset.sum_congr rfl fun c _ => ?_
  exact congrArg (· * w (coef f di dj c)) (patch_at x n h wd di dj c)

/-- The reference at output entry (n, h, w, f). -/
theorem ref_at (x : RefX) (w : RefW) (b : RefB) (n : Fin 8) (h wd : Fin 126) (f : Fin 128) :
    val_main_v23 (F := Ideal) x w b (ix4 n h wd f) = convAt x w b n h wd f := by
  have hl : ∀ k : Fin 576, lidx_main_v20 (ix4 n h wd f) k = ix4 n h wd k := fun k => funext fun a => by
    match a with | ⟨0, _⟩ => rfl | ⟨1, _⟩ => rfl | ⟨2, _⟩ => rfl | ⟨3, _⟩ => rfl
  have hr : ∀ k : Fin 576, ridx_main_v20 (ix4 n h wd f) k = ix2 f k := fun k => funext fun a => by
    match a with | ⟨0, _⟩ => rfl | ⟨1, _⟩ => rfl
  have h20 : val_main_v20 (F := Ideal) x w (ix4 n h wd f)
      = ∑ k : Fin 576, val_main_v19 (F := Ideal) x (ix4 n h wd k) * w (ix2 f k) := by
    rw [val_main_v20_apply]
    exact Finset.sum_congr rfl fun k _ => by rw [hl, hr]
  have h22 : val_main_v22 (F := Ideal) b (ix4 n h wd f) = b (ix1 f) := by
    rw [val_main_v22_apply, val_main_v21_apply]
    congr 1
    funext a
    match a with | ⟨0, _⟩ => rfl
  refine (val_main_v23_apply x w b _).trans ?_
  show val_main_v20 (F := Ideal) x w (ix4 n h wd f) + val_main_v22 (F := Ideal) b (ix4 n h wd f) = _
  rw [h20, h22, sum576_eq_taps]
  unfold convAt
  exact congrArg (· + b (ix1 f)) (by
    rw [← blk_eq_tap x w n h wd f 0 0, ← blk_eq_tap x w n h wd f 0 1, ← blk_eq_tap x w n h wd f 0 2,
      ← blk_eq_tap x w n h wd f 1 0, ← blk_eq_tap x w n h wd f 1 1, ← blk_eq_tap x w n h wd f 1 2,
      ← blk_eq_tap x w n h wd f 2 0, ← blk_eq_tap x w n h wd f 2 1, ← blk_eq_tap x w n h wd f 2 2]
    rfl)

/-- **The reference program computes the convolution.** -/
theorem ref_eq (x : (⟨Cert.ReferenceIdeal.S8x128x128x64, .f32⟩ : BufTy).Contents (Elt Ideal)) (w : (⟨Cert.ReferenceIdeal.S128x576, .f32⟩ : BufTy).Contents (Elt Ideal)) (b : (⟨Cert.ReferenceIdeal.S128, .f32⟩ : BufTy).Contents (Elt Ideal)) :
    Cert.ReferenceIdeal.Read.val_main_v23 (F := Ideal) x w b = Cert.ConvSpec.conv x w b := by
  funext i
  obtain ⟨n, h, wd, f, rfl⟩ : ∃ (n : Fin 8) (h wd : Fin 126) (f : Fin 128), i = ix4 n h wd f :=
    ⟨i 0, i 1, i 2, i 3, eq_ix4 i⟩
  exact ref_at x w b n h wd f

end Cert.RefConv

end
-- ==== Proof.lean ====
/-
  A 3 by 3 "valid" convolution over NHWC images — out[n, h, w, f] = Σ over the nine taps (di, dj) and the 64 channels c of
  x[n, h + di, w + dj, c] · wgt[f, 64·(3·di + dj) + c], plus b[f] — computed two ways.

  The kernel takes one image per grid point, transposes the weights once on the host, and in nine trips of a loop fills
  the image's output block fourteen rows at a time: for each tap it multiplies the [14·126, 64] patch of shifted pixels
  by the tap's [64, 128] slab of the transposed weights, adds the nine products in order, adds the bias and stores the
  chunk.  The reference gathers the nine shifted images into a [8, 126, 126, 576] array of patches and contracts it with
  the [128, 576] weights in one product, then adds the bias.

  At the ideal values both are the function `Cert.ConvSpec.conv` of the three argument arrays: the kernel because the
  nine chunks tile each image's output block, each chunk entry being the nine inner products of its own rows, and the
  eight blocks tile the array (Proof/TripPiece*, BodyRead, BodyOut, Payload, BodyValue, KernelValue); the reference
  because a sum over the 576 coefficients of a filter is the sum over the nine taps of the sums over the 64 channels —
  addition of extended reals is commutative and associative, and nothing else is used, so the precondition is never
  opened (Proof/RefConv).  The kernel's word-level program and its idealization run to completion leaving the arguments
  unchanged (the frame runs in Proof/FrameB, Proof/FrameI); the reference's frame is its run with the result dropped; the
  idealization rewrote no operation, so nothing is owed for it.
-/
import proofs.«163647_j44822278701238_2_alg».proof.Defs
import proofs.«163647_j44822278701238_2_alg».proof.Proof.Gen.Kernel
import proofs.«163647_j44822278701238_2_alg».proof.Proof.Gen.KernelIdeal
import proofs.«163647_j44822278701238_2_alg».proof.Proof.Gen.ReferenceIdeal
import proofs.«163647_j44822278701238_2_alg».proof.Proof.Gen.Pre_finite_inputs
import proofs.«163647_j44822278701238_2_alg».proof.Proof.Gen.ReferenceIdeal.Run
import proofs.«163647_j44822278701238_2_alg».proof.Proof.Gen.ReferenceIdeal.Read
import proofs.«163647_j44822278701238_2_alg».proof.Proof.FrameB
import proofs.«163647_j44822278701238_2_alg».proof.Proof.FrameI
import proofs.«163647_j44822278701238_2_alg».proof.Proof.KernelValueI
import proofs.«163647_j44822278701238_2_alg».proof.Proof.RefConv
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the result array at `conv` of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefConv.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
